-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x128x64x64 : Shape := ⟨4, ![64, 128, 64, 64]⟩
abbrev S64 : Shape := ⟨1, ![64]⟩
abbrev S4x128 : Shape := ⟨2, ![4, 128]⟩
abbrev S_ : Shape := ⟨0, ![]⟩

class Facts : Prop where
  bcast_S_S64x128x64x64 : S_.BroadcastsInDim S64x128x64x64 (![] : Fin 0 → Fin S64x128x64x64.rank)
  reducesTo_S64x128x64x64_S_d0_1_2_3 : S64x128x64x64.ReducesTo [0, 1, 2, 3] S_
  h_S_ : 0 < S_.numel
  bcast_S_S4x128 : S_.BroadcastsInDim S4x128 (![] : Fin 0 → Fin S4x128.rank)
  reducesTo_S4x128_S_d0_1 : S4x128.ReducesTo [0, 1] S_

variable [Facts]

def fn {F : FTy → Type} [FloatOps F] (main_arg0 : FVec F S64x128x64x64 .f32) (main_arg1 : IVec S64 32) (main_arg2 : FVec F S4x128 .f32) (main_arg3 : FVec F S4x128 .f32) : IVec S_ 1 :=
  let main_v0 : FVec F S64x128x64x64 .f32 := Host.absf main_arg0
  let main_cst : FVec F S_ .f32 := constant S_ .f32 0x7F800000#32
  let main_v1 : FVec F S64x128x64x64 .f32 := broadcastInDim S64x128x64x64 ![] bcast_S_S64x128x64x64 main_cst
  let main_v2 : IVec S64x128x64x64 1 := cmpf .olt main_v0 main_v1
  let main_c : IVec S_ 1 := constantI S_ 1 1#1
  let main_v3 : IVec S_ 1 := (fun x v => Host.reduce IntOp.andi x v reducesTo_S64x128x64x64_S_d0_1_2_3 h_S_) main_v2 main_c
  let main_v4 : FVec F S4x128 .f32 := Host.absf main_arg2
  let main_cst_0 : FVec F S_ .f32 := constant S_ .f32 0x7F800000#32
  let main_v5 : FVec F S4x128 .f32 := broadcastInDim S4x128 ![] bcast_S_S4x128 main_cst_0
  let main_v6 : IVec S4x128 1 := cmpf .olt main_v4 main_v5
  let main_c_1 : IVec S_ 1 := constantI S_ 1 1#1
  let main_v7 : IVec S_ 1 := (fun x v => Host.reduce IntOp.andi x v reducesTo_S4x128_S_d0_1 h_S_) main_v6 main_c_1
  let main_v8 : IVec S_ 1 := andi main_v3 main_v7
  let main_v9 : FVec F S4x128 .f32 := Host.absf main_arg3
  let main_cst_2 : FVec F S_ .f32 := constant S_ .f32 0x7F800000#32
  let main_v10 : FVec F S4x128 .f32 := broadcastInDim S4x128 ![] bcast_S_S4x128 main_cst_2
  let main_v11 : IVec S4x128 1 := cmpf .olt main_v9 main_v10
  let main_c_3 : IVec S_ 1 := constantI S_ 1 1#1
  let main_v12 : IVec S_ 1 := (fun x v => Host.reduce IntOp.andi x v reducesTo_S4x128_S_d0_1 h_S_) main_v11 main_c_3
  let main_v13 : IVec S_ 1 := andi main_v8 main_v12
  main_v13
-- ==== Kernel.lean ====
abbrev S64x128x64x64 : Shape := ⟨4, ![64, 128, 64, 64]⟩
abbrev S64 : Shape := ⟨1, ![64]⟩
abbrev S4x128 : Shape := ⟨2, ![4, 128]⟩
abbrev S64x128x4096 : Shape := ⟨3, ![64, 128, 4096]⟩
abbrev S64x128 : Shape := ⟨2, ![64, 128]⟩
abbrev S8x128x4096 : Shape := ⟨3, ![8, 128, 4096]⟩
abbrev S8x128 : Shape := ⟨2, ![8, 128]⟩
abbrev S_ : Shape := ⟨0, ![]⟩
abbrev S64x1 : Shape := ⟨2, ![64, 1]⟩
abbrev S4 : Shape := ⟨1, ![4]⟩
abbrev S4x1 : Shape := ⟨2, ![4, 1]⟩
abbrev S128 : Shape := ⟨1, ![128]⟩
abbrev S1x128 : Shape := ⟨2, ![1, 128]⟩
abbrev S8x128x2048 : Shape := ⟨3, ![8, 128, 2048]⟩
abbrev S8x128x1 : Shape := ⟨3, ![8, 128, 1]⟩

abbrev nBuf : Space → Nat
  | .hbm => 104
  | .vmem => 14
  | .smem => 0
  | _ => 0

abbrev bufTy : (tb : Table) → Fin (tcTables nBuf tb) → BufTy
  | .hbm, ⟨0, _⟩ => ⟨S64x128x64x64, .f32⟩
  | .hbm, ⟨1, _⟩ => ⟨S64, .i32⟩
  | .hbm, ⟨2, _⟩ => ⟨S4x128, .f32⟩
  | .hbm, ⟨3, _⟩ => ⟨S4x128, .f32⟩
  | .hbm, ⟨4, _⟩ => ⟨S64x128x4096, .f32⟩
  | .hbm, ⟨5, _⟩ => ⟨S64x128, .f32⟩
  | .hbm, ⟨6, _⟩ => ⟨S64x128, .f32⟩
  | .hbm, ⟨7, _⟩ => ⟨S_, .f32⟩
  | .hbm, ⟨8, _⟩ => ⟨S4x128, .f32⟩
  | .hbm, ⟨9, _⟩ => ⟨S64x1, .i32⟩
  | .hbm, ⟨10, _⟩ => ⟨S4x128, .f32⟩
  | .hbm, ⟨11, _⟩ => ⟨S_, .f32⟩
  | .hbm, ⟨12, _⟩ => ⟨S4x128, .f32⟩
  | .hbm, ⟨13, _⟩ => ⟨S64x1, .i32⟩
  | .hbm, ⟨14, _⟩ => ⟨S4x128, .f32⟩
  | .hbm, ⟨15, _⟩ => ⟨S_, .f32⟩
  | .hbm, ⟨16, _⟩ => ⟨S64, .f32⟩
  | .hbm, ⟨17, _⟩ => ⟨S_, .f32⟩
  | .hbm, ⟨18, _⟩ => ⟨S4, .f32⟩
  | .hbm, ⟨19, _⟩ => ⟨S64x1, .i32⟩
  | .hbm, ⟨20, _⟩ => ⟨S4, .f32⟩
  | .hbm, ⟨21, _⟩ => ⟨S_, .f32⟩
  | .hbm, ⟨22, _⟩ => ⟨S4, .f32⟩
  | .hbm, ⟨23, _⟩ => ⟨S4, .i1⟩
  | .hbm, ⟨24, _⟩ => ⟨S4, .f32⟩
  | .hbm, ⟨25, _⟩ => ⟨S4x1, .f32⟩
  | .hbm, ⟨26, _⟩ => ⟨S_, .f32⟩
  | .hbm, ⟨27, _⟩ => ⟨S4x128, .f32⟩
  | .hbm, ⟨28, _⟩ => ⟨S4x128, .f32⟩
  | .hbm, ⟨29, _⟩ => ⟨S_, .f32⟩
  | .hbm, ⟨30, _⟩ => ⟨S4x128, .f32⟩
  | .hbm, ⟨31, _⟩ => ⟨S4x128, .f32⟩
  | .hbm, ⟨32, _⟩ => ⟨S4x128, .f32⟩
  | .hbm, ⟨33, _⟩ => ⟨S4x128, .f32⟩
  | .hbm, ⟨34, _⟩ => ⟨S_, .f32⟩
  | .hbm, ⟨35, _⟩ => ⟨S4x128, .f32⟩
  | .hbm, ⟨36, _⟩ => ⟨S4x128, .f32⟩
  | .hbm, ⟨37, _⟩ => ⟨S_, .f32⟩
  | .hbm, ⟨38, _⟩ => ⟨S4x128, .f32⟩
  | .hbm, ⟨39, _⟩ => ⟨S4x128, .f32⟩
  | .hbm, ⟨40, _⟩ => ⟨S4x128, .f32⟩
  | .hbm, ⟨41, _⟩ => ⟨S4x128, .f32⟩
  | .hbm, ⟨42, _⟩ => ⟨S4x128, .f32⟩
  | .hbm, ⟨43, _⟩ => ⟨S4x128, .f32⟩
  | .hbm, ⟨44, _⟩ => ⟨S4x128, .f32⟩
  | .hbm, ⟨45, _⟩ => ⟨S4x128, .f32⟩
  | .hbm, ⟨46, _⟩ => ⟨S4x128, .f32⟩
  | .hbm, ⟨47, _⟩ => ⟨S_, .f32⟩
  | .hbm, ⟨48, _⟩ => ⟨S128, .f32⟩
  | .hbm, ⟨49, _⟩ => ⟨S_, .i32⟩
  | .hbm, ⟨50, _⟩ => ⟨S64, .i32⟩
  | .hbm, ⟨51, _⟩ => ⟨S64, .i1⟩
  | .hbm, ⟨52, _⟩ => ⟨S_, .i32⟩
  | .hbm, ⟨53, _⟩ => ⟨S64, .i32⟩
  | .hbm, ⟨54, _⟩ => ⟨S64, .i32⟩
  | .hbm, ⟨55, _⟩ => ⟨S64, .i32⟩
  | .hbm, ⟨56, _⟩ => ⟨S64x1, .i32⟩
  | .hbm, ⟨57, _⟩ => ⟨S64x128, .f32⟩
  | .hbm, ⟨58, _⟩ => ⟨S_, .i32⟩
  | .hbm, ⟨59, _⟩ => ⟨S64, .i32⟩
  | .hbm, ⟨60, _⟩ => ⟨S64, .i1⟩
  | .hbm, ⟨61, _⟩ => ⟨S_, .i32⟩
  | .hbm, ⟨62, _⟩ => ⟨S64, .i32⟩
  | .hbm, ⟨63, _⟩ => ⟨S64, .i32⟩
  | .hbm, ⟨64, _⟩ => ⟨S64, .i32⟩
  | .hbm, ⟨65, _⟩ => ⟨S64x1, .i32⟩
  | .hbm, ⟨66, _⟩ => ⟨S64x128, .f32⟩
  | .hbm, ⟨67, _⟩ => ⟨S_, .i32⟩
  | .hbm, ⟨68, _⟩ => ⟨S64, .i32⟩
  | .hbm, ⟨69, _⟩ => ⟨S64, .i1⟩
  | .hbm, ⟨70, _⟩ => ⟨S_, .i32⟩
  | .hbm, ⟨71, _⟩ => ⟨S64, .i32⟩
  | .hbm, ⟨72, _⟩ => ⟨S64, .i32⟩
  | .hbm, ⟨73, _⟩ => ⟨S64, .i32⟩
  | .hbm, ⟨74, _⟩ => ⟨S64x1, .i32⟩
  | .hbm, ⟨75, _⟩ => ⟨S64x128, .f32⟩
  | .hbm, ⟨76, _⟩ => ⟨S_, .i32⟩
  | .hbm, ⟨77, _⟩ => ⟨S64, .i32⟩
  | .hbm, ⟨78, _⟩ => ⟨S64, .i1⟩
  | .hbm, ⟨79, _⟩ => ⟨S_, .i32⟩
  | .hbm, ⟨80, _⟩ => ⟨S64, .i32⟩
  | .hbm, ⟨81, _⟩ => ⟨S64, .i32⟩
  | .hbm, ⟨82, _⟩ => ⟨S64, .i32⟩
  | .hbm, ⟨83, _⟩ => ⟨S64x1, .i32⟩
  | .hbm, ⟨84, _⟩ => ⟨S64x128, .f32⟩
  | .hbm, ⟨85, _⟩ => ⟨S_, .i32⟩
  | .hbm, ⟨86, _⟩ => ⟨S64, .i32⟩
  | .hbm, ⟨87, _⟩ => ⟨S64, .i1⟩
  | .hbm, ⟨88, _⟩ => ⟨S_, .i32⟩
  | .hbm, ⟨89, _⟩ => ⟨S64, .i32⟩
  | .hbm, ⟨90, _⟩ => ⟨S64, .i32⟩
  | .hbm, ⟨91, _⟩ => ⟨S64, .i32⟩
  | .hbm, ⟨92, _⟩ => ⟨S64x1, .i32⟩
  | .hbm, ⟨93, _⟩ => ⟨S64x128, .f32⟩
  | .hbm, ⟨94, _⟩ => ⟨S64x128, .f32⟩
  | .hbm, ⟨95, _⟩ => ⟨S1x128, .f32⟩
  | .hbm, ⟨96, _⟩ => ⟨S64x128, .f32⟩
  | .hbm, ⟨97, _⟩ => ⟨S64x128, .f32⟩
  | .hbm, ⟨98, _⟩ => ⟨S64x128, .f32⟩
  | .hbm, ⟨99, _⟩ => ⟨S64x128, .f32⟩
  | .hbm, ⟨100, _⟩ => ⟨S64x128, .f32⟩
  | .hbm, ⟨101, _⟩ => ⟨S64x128, .f32⟩
  | .hbm, ⟨102, _⟩ => ⟨S64x128x4096, .f32⟩
  | .hbm, ⟨103, _⟩ => ⟨S64x128x64x64, .f32⟩
  | .local _ .vmem, ⟨0, _⟩ => ⟨S8x128x4096, .f32⟩
  | .local _ .vmem, ⟨1, _⟩ => ⟨S8x128x4096, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128x2048, .f32⟩
  | .local _ .vmem, ⟨7, _⟩ => ⟨S8x128x2048, .f32⟩
  | .local _ .vmem, ⟨8, _⟩ => ⟨S8x128, .f32⟩
  | .local _ .vmem, ⟨9, _⟩ => ⟨S8x128, .f32⟩
  | .local _ .vmem, ⟨10, _⟩ => ⟨S8x128, .f32⟩
  | .local _ .vmem, ⟨11, _⟩ => ⟨S8x128, .f32⟩
  | .local _ .vmem, ⟨12, _⟩ => ⟨S8x128x2048, .f32⟩
  | .local _ .vmem, ⟨13, _⟩ => ⟨S8x128x2048, .f32⟩
  | _, _ => ⟨S64x128x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_8 : Ref sig .tc := ⟨.hbm, 47, rfl⟩
abbrev main_v33 : Ref sig .tc := ⟨.hbm, 48, rfl⟩
abbrev main_c : Ref sig .tc := ⟨.hbm, 49, rfl⟩
abbrev main_v34 : Ref sig .tc := ⟨.hbm, 50, rfl⟩
abbrev main_v35 : Ref sig .tc := ⟨.hbm, 51, rfl⟩
abbrev main_c_9 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_c_10 : Ref sig .tc := ⟨.hbm, 58, rfl⟩
abbrev main_v41 : Ref sig .tc := ⟨.hbm, 59, rfl⟩
abbrev main_v42 : Ref sig .tc := ⟨.hbm, 60, rfl⟩
abbrev main_c_11 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_12 : Ref sig .tc := ⟨.hbm, 67, rfl⟩
abbrev main_v48 : Ref sig .tc := ⟨.hbm, 68, rfl⟩
abbrev main_v49 : Ref sig .tc := ⟨.hbm, 69, rfl⟩
abbrev main_c_13 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_c_14 : Ref sig .tc := ⟨.hbm, 76, rfl⟩
abbrev main_v55 : Ref sig .tc := ⟨.hbm, 77, rfl⟩
abbrev main_v56 : Ref sig .tc := ⟨.hbm, 78, rfl⟩
abbrev main_c_15 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_c_16 : Ref sig .tc := ⟨.hbm, 85, rfl⟩
abbrev main_v62 : Ref sig .tc := ⟨.hbm, 86, rfl⟩
abbrev main_v63 : Ref sig .tc := ⟨.hbm, 87, rfl⟩
abbrev main_c_17 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S8x128x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S8x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S8x128x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S64x128x64x64_S64x128x4096 : S64x128x64x64.ShapeCasts S64x128x4096
  inb_S8x128x4096_S8x128x4096_0_0_0 : ∀ a, (![0, 0, 0] : Fin 3 → Nat) a + S8x128x4096.size a ≤ S8x128x4096.size a
  h_S8x128x4096 : 0 < S8x128x4096.numel
  shapeCasts_S8x128x4096_S8x128x4096 : S8x128x4096.ShapeCasts S8x128x4096
  reduces_S8x128x4096_S8x128 : S8x128x4096.Reduces [2] S8x128
  inb_S8x128_S8x128_0_0 : ∀ a, (![0, 0] : Fin 2 → Nat) a + S8x128.size a ≤ S8x128.size a
  h_S8x128 : 0 < S8x128.numel
  bcast_S_S4x128 : S_.BroadcastsInDim S4x128 (![] : Fin 0 → Fin S4x128.rank)
  bcast_S64_S64x1_0 : S64.BroadcastsInDim S64x1 (![0] : Fin 1 → Fin S64x1.rank)
  bcast_S_S64 : S_.BroadcastsInDim S64 (![] : Fin 0 → Fin S64.rank)
  bcast_S_S4 : S_.BroadcastsInDim S4 (![] : Fin 0 → Fin S4.rank)
  bcast_S4_S4x1_0 : S4.BroadcastsInDim S4x1 (![0] : Fin 1 → Fin S4x1.rank)
  bcast_S4x1_S4x128_0_1 : S4x1.BroadcastsInDim S4x128 (![0, 1] : Fin 2 → Fin S4x128.rank)
  reducesTo_S4x128_S128_d0 : S4x128.ReducesTo [0] S128
  h_S_ : 0 < S_.numel
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  inb_S8x128x2048_S8x128x2048_0_0_0 : ∀ a, (![0, 0, 0] : Fin 3 → Nat) a + S8x128x2048.size a ≤ S8x128x2048.size a
  h_S8x128x2048 : 0 < S8x128x2048.numel
  shapeCasts_S8x128x2048_S8x128x2048 : S8x128x2048.ShapeCasts S8x128x2048
  shapeCasts_S8x128_S8x128 : S8x128.ShapeCasts S8x128
  shapeCasts_S8x128_S8x128x1 : S8x128.ShapeCasts S8x128x1
  broadcasts_S8x128x1_S8x128x2048 : S8x128x1.Broadcasts S8x128x2048
  shapeCasts_S64x128x4096_S64x128x64x64 : S64x128x4096.ShapeCasts S64x128x64x64
  scatter_S4x128_S64x1_S64x128_1_0_0_1_wf : ScatterDims.WF S4x128 S64x1 S64x128 [1] [0] [0] 1
  scatter_S4_S64x1_S64_n_0_0_1_wf : ScatterDims.WF S4 S64x1 S64 [] [0] [0] 1
  gather_S4x128_S64x1_S64x128_1_0_n_n_0_1_1128_wf : GatherDims.WF S4x128 S64x1 S64x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x4096.size a ≤ S64x128x4096.size a
  hwx0_0 : ∀ i : grid0.Coords, EltTy.bits .f32 = 32 ∨ (Rect.block (s := S64x128x4096) S8x128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S64x128.size a
  hwx0_1 : ∀ i : grid0.Coords, EltTy.bits .f32 = 32 ∨ (Rect.block (s := S64x128) S8x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S64x128.size a
  hwx0_2 : ∀ i : grid0.Coords, EltTy.bits .f32 = 32 ∨ (Rect.block (s := S64x128) S8x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x128x2048.size a ≤ S64x128x4096.size a
  hwx1_0 : ∀ i : grid1.Coords, EltTy.bits .f32 = 32 ∨ (Rect.block (s := S64x128x4096) S8x128x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x128.size a ≤ S64x128.size a
  hwx1_1 : ∀ i : grid1.Coords, EltTy.bits .f32 = 32 ∨ (Rect.block (s := S64x128) S8x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x128.size a ≤ S64x128.size a
  hwx1_2 : ∀ i : grid1.Coords, EltTy.bits .f32 = 32 ∨ (Rect.block (s := S64x128) S8x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x128x2048.size a ≤ S64x128x4096.size a
  hwx1_3 : ∀ i : grid1.Coords, EltTy.bits .f32 = 32 ∨ (Rect.block (s := S64x128x4096) S8x128x2048.size (cc1_transform_3 i) (hinb1_3 i)).WholeWords (EltTy.packing .f32)

variable [Facts₀]

def scatter_S4x128_S64x1_S64x128_1_0_0_1 : ScatterDims S4x128 S64x1 S64x128 where
  updateWindowDims := [1]
  insertedWindowDims := [0]
  scatterDimsToOperandDims := [0]
  indexVectorDim := 1
  wf := scatter_S4x128_S64x1_S64x128_1_0_0_1_wf
def scatter_S4_S64x1_S64_n_0_0_1 : ScatterDims S4 S64x1 S64 where
  updateWindowDims := []
  insertedWindowDims := [0]
  scatterDimsToOperandDims := [0]
  indexVectorDim := 1
  wf := scatter_S4_S64x1_S64_n_0_0_1_wf
def gather_S4x128_S64x1_S64x128_1_0_n_n_0_1_1128 : GatherDims S4x128 S64x1 S64x128 where
  offsetDims := [1]
  collapsedSliceDims := [0]
  operandBatchingDims := []
  startIndicesBatchingDims := []
  startIndexMap := [0]
  indexVectorDim := 1
  sliceSizes := ![1, 128]
  wf := gather_S4x128_S64x1_S64x128_1_0_n_n_0_1_1128_wf

abbrev win0_0 : Pipeline.Window sig grid0 :=
  Pipeline.Window.ofSpec (Memref.whole main_v0) S8x128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S8x128.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S8x128x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v69) S8x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v76) S8x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v77) S8x128x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S64x128x64x64 : Shape := ⟨4, ![64, 128, 64, 64]⟩
abbrev S64 : Shape := ⟨1, ![64]⟩
abbrev S4x128 : Shape := ⟨2, ![4, 128]⟩
abbrev S_ : Shape := ⟨0, ![]⟩
abbrev S64x128 : Shape := ⟨2, ![64, 128]⟩
abbrev S64x1 : Shape := ⟨2, ![64, 1]⟩
abbrev S4 : Shape := ⟨1, ![4]⟩
abbrev S4x1 : Shape := ⟨2, ![4, 1]⟩
abbrev S128 : Shape := ⟨1, ![128]⟩
abbrev S64x128x1x1 : Shape := ⟨4, ![64, 128, 1, 1]⟩
abbrev S1x128x1x1 : Shape := ⟨4, ![1, 128, 1, 1]⟩

abbrev nBuf : Space → Nat
  | .hbm => 111
  | .vmem => 0
  | .smem => 0
  | _ => 0

abbrev bufTy : (tb : Table) → Fin (tcTables nBuf tb) → BufTy
  | .hbm, ⟨0, _⟩ => ⟨S64x128x64x64, .f32⟩
  | .hbm, ⟨1, _⟩ => ⟨S64, .i32⟩
  | .hbm, ⟨2, _⟩ => ⟨S4x128, .f32⟩
  | .hbm, ⟨3, _⟩ => ⟨S4x128, .f32⟩
  | .hbm, ⟨4, _⟩ => ⟨S_, .f32⟩
  | .hbm, ⟨5, _⟩ => ⟨S64x128, .f32⟩
  | .hbm, ⟨6, _⟩ => ⟨S64x128x64x64, .f32⟩
  | .hbm, ⟨7, _⟩ => ⟨S_, .f32⟩
  | .hbm, ⟨8, _⟩ => ⟨S64x128, .f32⟩
  | .hbm, ⟨9, _⟩ => ⟨S_, .f32⟩
  | .hbm, ⟨10, _⟩ => ⟨S4x128, .f32⟩
  | .hbm, ⟨11, _⟩ => ⟨S64x1, .i32⟩
  | .hbm, ⟨12, _⟩ => ⟨S4x128, .f32⟩
  | .hbm, ⟨13, _⟩ => ⟨S_, .f32⟩
  | .hbm, ⟨14, _⟩ => ⟨S4x128, .f32⟩
  | .hbm, ⟨15, _⟩ => ⟨S64x1, .i32⟩
  | .hbm, ⟨16, _⟩ => ⟨S4x128, .f32⟩
  | .hbm, ⟨17, _⟩ => ⟨S_, .f32⟩
  | .hbm, ⟨18, _⟩ => ⟨S64, .f32⟩
  | .hbm, ⟨19, _⟩ => ⟨S_, .f32⟩
  | .hbm, ⟨20, _⟩ => ⟨S4, .f32⟩
  | .hbm, ⟨21, _⟩ => ⟨S64x1, .i32⟩
  | .hbm, ⟨22, _⟩ => ⟨S4, .f32⟩
  | .hbm, ⟨23, _⟩ => ⟨S_, .f32⟩
  | .hbm, ⟨24, _⟩ => ⟨S4, .f32⟩
  | .hbm, ⟨25, _⟩ => ⟨S4, .i1⟩
  | .hbm, ⟨26, _⟩ => ⟨S4, .f32⟩
  | .hbm, ⟨27, _⟩ => ⟨S4x1, .f32⟩
  | .hbm, ⟨28, _⟩ => ⟨S_, .f32⟩
  | .hbm, ⟨29, _⟩ => ⟨S4x128, .f32⟩
  | .hbm, ⟨30, _⟩ => ⟨S4x128, .f32⟩
  | .hbm, ⟨31, _⟩ => ⟨S_, .f32⟩
  | .hbm, ⟨32, _⟩ => ⟨S4x128, .f32⟩
  | .hbm, ⟨33, _⟩ => ⟨S4x128, .f32⟩
  | .hbm, ⟨34, _⟩ => ⟨S4x128, .f32⟩
  | .hbm, ⟨35, _⟩ => ⟨S4x128, .f32⟩
  | .hbm, ⟨36, _⟩ => ⟨S_, .f32⟩
  | .hbm, ⟨37, _⟩ => ⟨S4x128, .f32⟩
  | .hbm, ⟨38, _⟩ => ⟨S4x128, .f32⟩
  | .hbm, ⟨39, _⟩ => ⟨S4x128, .f32⟩
  | .hbm, ⟨40, _⟩ => ⟨S4x128, .f32⟩
  | .hbm, ⟨41, _⟩ => ⟨S4x128, .f32⟩
  | .hbm, ⟨42, _⟩ => ⟨S4x128, .f32⟩
  | .hbm, ⟨43, _⟩ => ⟨S4x128, .f32⟩
  | .hbm, ⟨44, _⟩ => ⟨S4x128, .f32⟩
  | .hbm, ⟨45, _⟩ => ⟨S4x128, .f32⟩
  | .hbm, ⟨46, _⟩ => ⟨S_, .f32⟩
  | .hbm, ⟨47, _⟩ => ⟨S128, .f32⟩
  | .hbm, ⟨48, _⟩ => ⟨S_, .i32⟩
  | .hbm, ⟨49, _⟩ => ⟨S64, .i32⟩
  | .hbm, ⟨50, _⟩ => ⟨S64, .i1⟩
  | .hbm, ⟨51, _⟩ => ⟨S_, .i32⟩
  | .hbm, ⟨52, _⟩ => ⟨S64, .i32⟩
  | .hbm, ⟨53, _⟩ => ⟨S64, .i32⟩
  | .hbm, ⟨54, _⟩ => ⟨S64, .i32⟩
  | .hbm, ⟨55, _⟩ => ⟨S64x1, .i32⟩
  | .hbm, ⟨56, _⟩ => ⟨S64x128, .f32⟩
  | .hbm, ⟨57, _⟩ => ⟨S64x128x1x1, .f32⟩
  | .hbm, ⟨58, _⟩ => ⟨S64x128x64x64, .f32⟩
  | .hbm, ⟨59, _⟩ => ⟨S64x128x64x64, .f32⟩
  | .hbm, ⟨60, _⟩ => ⟨S_, .i32⟩
  | .hbm, ⟨61, _⟩ => ⟨S64, .i32⟩
  | .hbm, ⟨62, _⟩ => ⟨S64, .i1⟩
  | .hbm, ⟨63, _⟩ => ⟨S_, .i32⟩
  | .hbm, ⟨64, _⟩ => ⟨S64, .i32⟩
  | .hbm, ⟨65, _⟩ => ⟨S64, .i32⟩
  | .hbm, ⟨66, _⟩ => ⟨S64, .i32⟩
  | .hbm, ⟨67, _⟩ => ⟨S64x1, .i32⟩
  | .hbm, ⟨68, _⟩ => ⟨S64x128, .f32⟩
  | .hbm, ⟨69, _⟩ => ⟨S64x128x1x1, .f32⟩
  | .hbm, ⟨70, _⟩ => ⟨S64x128x64x64, .f32⟩
  | .hbm, ⟨71, _⟩ => ⟨S64x128x64x64, .f32⟩
  | .hbm, ⟨72, _⟩ => ⟨S_, .i32⟩
  | .hbm, ⟨73, _⟩ => ⟨S64, .i32⟩
  | .hbm, ⟨74, _⟩ => ⟨S64, .i1⟩
  | .hbm, ⟨75, _⟩ => ⟨S_, .i32⟩
  | .hbm, ⟨76, _⟩ => ⟨S64, .i32⟩
  | .hbm, ⟨77, _⟩ => ⟨S64, .i32⟩
  | .hbm, ⟨78, _⟩ => ⟨S64, .i32⟩
  | .hbm, ⟨79, _⟩ => ⟨S64x1, .i32⟩
  | .hbm, ⟨80, _⟩ => ⟨S64x128, .f32⟩
  | .hbm, ⟨81, _⟩ => ⟨S64x128x1x1, .f32⟩
  | .hbm, ⟨82, _⟩ => ⟨S64x128x64x64, .f32⟩
  | .hbm, ⟨83, _⟩ => ⟨S64x128x64x64, .f32⟩
  | .hbm, ⟨84, _⟩ => ⟨S_, .i32⟩
  | .hbm, ⟨85, _⟩ => ⟨S64, .i32⟩
  | .hbm, ⟨86, _⟩ => ⟨S64, .i1⟩
  | .hbm, ⟨87, _⟩ => ⟨S_, .i32⟩
  | .hbm, ⟨88, _⟩ => ⟨S64, .i32⟩
  | .hbm, ⟨89, _⟩ => ⟨S64, .i32⟩
  | .hbm, ⟨90, _⟩ => ⟨S64, .i32⟩
  | .hbm, ⟨91, _⟩ => ⟨S64x1, .i32⟩
  | .hbm, ⟨92, _⟩ => ⟨S64x128, .f32⟩
  | .hbm, ⟨93, _⟩ => ⟨S64x128x1x1, .f32⟩
  | .hbm, ⟨94, _⟩ => ⟨S64x128x64x64, .f32⟩
  | .hbm, ⟨95, _⟩ => ⟨S64x128x64x64, .f32⟩
  | .hbm, ⟨96, _⟩ => ⟨S1x128x1x1, .f32⟩
  | .hbm, ⟨97, _⟩ => ⟨S_, .i32⟩
  | .hbm, ⟨98, _⟩ => ⟨S64, .i32⟩
  | .hbm, ⟨99, _⟩ => ⟨S64, .i1⟩
  | .hbm, ⟨100, _⟩ => ⟨S_, .i32⟩
  | .hbm, ⟨101, _⟩ => ⟨S64, .i32⟩
  | .hbm, ⟨102, _⟩ => ⟨S64, .i32⟩
  | .hbm, ⟨103, _⟩ => ⟨S64, .i32⟩
  | .hbm, ⟨104, _⟩ => ⟨S64x1, .i32⟩
  | .hbm, ⟨105, _⟩ => ⟨S64x128, .f32⟩
  | .hbm, ⟨106, _⟩ => ⟨S64x128x1x1, .f32⟩
  | .hbm, ⟨107, _⟩ => ⟨S64x128x1x1, .f32⟩
  | .hbm, ⟨108, _⟩ => ⟨S64x128x1x1, .f32⟩
  | .hbm, ⟨109, _⟩ => ⟨S64x128x64x64, .f32⟩
  | .hbm, ⟨110, _⟩ => ⟨S64x128x64x64, .f32⟩
  | _, _ => ⟨S64x128x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_cst_4 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_5 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_cst_7 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_9 : Ref sig .tc := ⟨.hbm, 46, rfl⟩
abbrev main_v32 : Ref sig .tc := ⟨.hbm, 47, rfl⟩
abbrev main_c : Ref sig .tc := ⟨.hbm, 48, rfl⟩
abbrev main_v33 : Ref sig .tc := ⟨.hbm, 49, rfl⟩
abbrev main_v34 : Ref sig .tc := ⟨.hbm, 50, rfl⟩
abbrev main_c_10 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_c_11 : Ref sig .tc := ⟨.hbm, 60, rfl⟩
abbrev main_v43 : Ref sig .tc := ⟨.hbm, 61, rfl⟩
abbrev main_v44 : Ref sig .tc := ⟨.hbm, 62, rfl⟩
abbrev main_c_12 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_c_13 : Ref sig .tc := ⟨.hbm, 72, rfl⟩
abbrev main_v53 : Ref sig .tc := ⟨.hbm, 73, rfl⟩
abbrev main_v54 : Ref sig .tc := ⟨.hbm, 74, rfl⟩
abbrev main_c_14 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_c_15 : Ref sig .tc := ⟨.hbm, 84, rfl⟩
abbrev main_v63 : Ref sig .tc := ⟨.hbm, 85, rfl⟩
abbrev main_v64 : Ref sig .tc := ⟨.hbm, 86, rfl⟩
abbrev main_c_16 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_c_17 : Ref sig .tc := ⟨.hbm, 97, rfl⟩
abbrev main_v74 : Ref sig .tc := ⟨.hbm, 98, rfl⟩
abbrev main_v75 : Ref sig .tc := ⟨.hbm, 99, rfl⟩
abbrev main_c_18 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩

abbrev nD : Nat := 1
abbrev τ : Topo := Topo.v7x

variable {F : FTy → Type} [FloatOps F]

class Facts₀ : Prop where
  reducesTo_S64x128x64x64_S64x128_d2_3 : S64x128x64x64.ReducesTo [2, 3] S64x128
  h_S_ : 0 < S_.numel
  bcast_S_S4x128 : S_.BroadcastsInDim S4x128 (![] : Fin 0 → Fin S4x128.rank)
  bcast_S64_S64x1_0 : S64.BroadcastsInDim S64x1 (![0] : Fin 1 → Fin S64x1.rank)
  bcast_S_S64 : S_.BroadcastsInDim S64 (![] : Fin 0 → Fin S64.rank)
  bcast_S_S4 : S_.BroadcastsInDim S4 (![] : Fin 0 → Fin S4.rank)
  bcast_S4_S4x1_0 : S4.BroadcastsInDim S4x1 (![0] : Fin 1 → Fin S4x1.rank)
  bcast_S4x1_S4x128_0_1 : S4x1.BroadcastsInDim S4x128 (![0, 1] : Fin 2 → Fin S4x128.rank)
  reducesTo_S4x128_S128_d0 : S4x128.ReducesTo [0] S128
  bcast_S64x128_S64x128x1x1_0_1 : S64x128.BroadcastsInDim S64x128x1x1 (![0, 1] : Fin 2 → Fin S64x128x1x1.rank)
  bcast_S64x128x1x1_S64x128x64x64_0_1_2_3 : S64x128x1x1.BroadcastsInDim S64x128x64x64 (![0, 1, 2, 3] : Fin 4 → Fin S64x128x64x64.rank)
  bcast_S128_S1x128x1x1_1 : S128.BroadcastsInDim S1x128x1x1 (![1] : Fin 1 → Fin S1x128x1x1.rank)
  bcast_S1x128x1x1_S64x128x1x1_0_1_2_3 : S1x128x1x1.BroadcastsInDim S64x128x1x1 (![0, 1, 2, 3] : Fin 4 → Fin S64x128x1x1.rank)
  scatter_S4x128_S64x1_S64x128_1_0_0_1_wf : ScatterDims.WF S4x128 S64x1 S64x128 [1] [0] [0] 1
  scatter_S4_S64x1_S64_n_0_0_1_wf : ScatterDims.WF S4 S64x1 S64 [] [0] [0] 1
  gather_S4x128_S64x1_S64x128_1_0_n_n_0_1_1128_wf : GatherDims.WF S4x128 S64x1 S64x128 [1] [0] [] [0] [] 1 ![1, 128]

variable [Facts₀]

def scatter_S4x128_S64x1_S64x128_1_0_0_1 : ScatterDims S4x128 S64x1 S64x128 where
  updateWindowDims := [1]
  insertedWindowDims := [0]
  scatterDimsToOperandDims := [0]
  indexVectorDim := 1
  wf := scatter_S4x128_S64x1_S64x128_1_0_0_1_wf
def scatter_S4_S64x1_S64_n_0_0_1 : ScatterDims S4 S64x1 S64 where
  updateWindowDims := []
  insertedWindowDims := [0]
  scatterDimsToOperandDims := [0]
  indexVectorDim := 1
  wf := scatter_S4_S64x1_S64_n_0_0_1_wf
def gather_S4x128_S64x1_S64x128_1_0_n_n_0_1_1128 : GatherDims S4x128 S64x1 S64x128 where
  offsetDims := [1]
  collapsedSliceDims := [0]
  operandBatchingDims := []
  startIndicesBatchingDims := []
  startIndexMap := [0]
  indexVectorDim := 1
  sliceSizes := ![1, 128]
  wf := gather_S4x128_S64x1_S64x128_1_0_n_n_0_1_1128_wf

class Facts : Prop extends Facts₀ where

variable [Facts]
-- ==== Proof.KernelRun.lean ====
/-
  The idealized kernel's run with its result named. @main is five segments — a reshape of the input to 64×128×4096, the
  statistics region, the host arithmetic that turns the per-row sums into a scale and a bias, the transform region, and the
  reshape back to 64×128×64×64 — and the several-region launch theorem leaves every unscoped buffer at the last boundary's
  contents. Read at the result buffer this gives the result as that boundary's value; read at the arguments, that they end
  as launched.
-/
import proofs.«115903_j54004918780586_2_alg».proof.Proof.Gen.KernelIdeal.Frame

set_option maxRecDepth 16384

noncomputable section

namespace Cert.KernelIdeal.HandRun

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the four arguments as launched. -/
theorem run_last : θ_run defs (onTc (τ := τ) (main (F := F))) ⟨m, fun _ => 0, ρ⟩ (fun r => ∀ c : Dev nD,
      r.2.mem ((c.tc : Thread nD τ).loc main_v78) = W5 m ρ c (Proc.devRef .tc main_v78)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v78 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)

end Cert.KernelIdeal.HandRun

end
-- ==== Proof.Stats.lean ====
/-
  The statistics region of the idealized kernel, read as two whole-array functions. The region walks the 64×128×4096 input in
  8 blocks of 8 rows of the first axis; at each block the body stores, for each of the block's 8×128 rows (b, c), the sum of the
  row's 4096 entries into one output and the sum of their squares into the other. The 8 blocks tile the 64 rows, so after the
  region the first output array holds every row's sum and the second every row's sum of squares, as functions of the array the
  region was entered with.
-/
import proofs.«115903_j54004918780586_2_alg».proof.Proof.Gen.KernelIdeal.Frame
import Idealize.ShloMosaic.Lib.ValueIdx
import Idealize.ShloMosaic.Lib.Pipeline.Value
import Idealize.ShloMosaic.PureOps.Ideal.Laws

set_option maxRecDepth 16384

noncomputable section

namespace Cert.KernelIdeal.Stats

open Idealize.ShloMosaic Idealize.ShloMosaic.TcCoe Idealize.ShloMosaic.ValueIdx Idealize.SL.Sem Cert.KernelIdeal Cert.KernelIdeal.Gen
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The sum of the 4096 entries of row (b, c) of a 64×128×4096 array. -/
def rowSum (x : S64x128x4096.Idx → EReal) : S64x128.Idx → EReal :=
  fun j => ∑ l : Fin 4096, x (ix3 (j 0) (j 1) l)

/-- The sum of the squares of the 4096 entries of row (b, c). -/
def rowSumSq (x : S64x128x4096.Idx → EReal) : S64x128.Idx → EReal :=
  fun j => ∑ l : Fin 4096, x (ix3 (j 0) (j 1) l) * x (ix3 (j 0) (j 1) l)

/-- Entry (p, q) of the first stored value is the sum of row (p, q) of the loaded block. -/
theorem pay_sum (x0 : Vec Ideal S8x128x4096 .f32) (p : Fin 8) (q : Fin 128) :
    k0_pay2 x0 (ix2 p q) = ∑ l : Fin 4096, x0 (ix3 p q l) := by
  unfold k0_pay2 k0_pay1
  refine (Ideal.multiReduction_add_single _ 0x00000000#32 reduces_S8x128x4096_S8x128 (.inl rfl) rfl (ix2 p q)).trans ?_
  simp only [shapeCast_self]
  refine Finset.sum_congr rfl fun k _ => congrArg x0 ?_
  funext a; apply Fin.ext
  match a with
  | ⟨0, _⟩ => rfl
  | ⟨1, _⟩ => rfl
  | ⟨2, _⟩ => rfl

/-- Entry (p, q) of the second stored value is the sum of the squares of row (p, q) of the loaded block. -/
theorem pay_sumsq (x0 : Vec Ideal S8x128x4096 .f32) (p : Fin 8) (q : Fin 128) :
    k0_pay3 x0 (ix2 p q) = ∑ l : Fin 4096, x0 (ix3 p q l) * x0 (ix3 p q l) := by
  unfold k0_pay3 k0_pay1
  refine (Ideal.multiReduction_add_single _ 0x00000000#32 reduces_S8x128x4096_S8x128 (.inl rfl) rfl (ix2 p q)).trans ?_
  simp only [shapeCast_self]
  refine Finset.sum_congr rfl fun k _ => ?_
  have e : reduces_S8x128x4096_S8x128.lift (ix2 p q) k = ix3 p q k := by
    funext a; apply Fin.ext
    match a with
    | ⟨0, _⟩ => rfl
    | ⟨1, _⟩ => rfl
    | ⟨2, _⟩ => rfl
  show x0 _ * x0 _ = _
  rw [e]; rfl

/-- The printed index maps over the grid of 8 points: point t reads block (t, 0, 0) of the input and writes block (t, 0)
    of each output. -/
theorem idx_facts : ∀ t : Fin cfg0.N, win0_0.index t (0 : Fin 3) = win0_1.index t (0 : Fin 2)
    ∧ win0_0.index t (1 : Fin 3) = 0 ∧ win0_0.index t (2 : Fin 3) = 0
    ∧ win0_1.index t (1 : Fin 2) = 0
    ∧ win0_2.index t (0 : Fin 2) = win0_1.index t (0 : Fin 2) ∧ win0_2.index t (1 : Fin 2) = 0
    ∧ win0_1.index t (0 : Fin 2) ≤ 7 :=
  (by decide +kernel : ∀ t : Fin grid0.N, _)

/-- Every block row of the outputs is some point's. -/
theorem idx_onto : ∀ q0 : Fin 8, ∃ t : Fin cfg0.N, win0_1.index t (0 : Fin 2) = q0.val :=
  (by decide +kernel : ∀ q0 : Fin 8, ∃ t : Fin grid0.N, win0_1.index t (0 : Fin 2) = q0.val)

/-- What point t writes back through window 1 is block t of the row sums of the input array. -/
theorem flushed1_eq (c : Dev nD) (t : Fin cfg0.N) :
    (dat0 V c).flushed 1 t = ((cfg0.win 1).blk t).view.read (Elt Ideal) (rowSum (V c main_v0)) := by
  show (cfg0.win 1).cut (grid0.coords t) ((dat0 V c).after 1 t) = _
  rw [after0_1]
  unfold out0_1
  rw [View.canon_unit_zero hz2]
  simp only [View.ld_unit_zero (S := S8x128x4096) hz3]
  obtain ⟨e0, e1, e2, e3, e4, e5, e6⟩ := idx_facts t
  funext j
  obtain ⟨p, q, rfl⟩ : ∃ (p : Fin 8) (q : Fin 128), j = ix2 p q := ⟨j 0, j 1, eq_ix2 j⟩
  show k0_pay2 (iblk0 V c 0 t) (ix2 p q) = rowSum (V c main_v0) (((cfg0.win 1).blk t).view.emb (ix2 p q))
  refine (pay_sum (iblk0 V c 0 t) p q).trans ?_
  unfold rowSum
  refine Finset.sum_congr rfl fun l _ => ?_
  show V c main_v0 (((cfg0.win 0).blk t).view.emb (ix3 p q l)) = V c main_v0 _
  refine congrArg (V c main_v0) ?_
  funext a; apply Fin.ext
  match a with
  | ⟨0, _⟩ => show win0_0.index t (0 : Fin 3) * 8 + 1 * p.val = win0_1.index t (0 : Fin 2) * 8 + 1 * p.val; omega
  | ⟨1, _⟩ => show win0_0.index t (1 : Fin 3) * 128 + 1 * q.val = win0_1.index t (1 : Fin 2) * 128 + 1 * q.val; omega
  | ⟨2, _⟩ => show win0_0.index t (2 : Fin 3) * 4096 + 1 * l.val = l.val; omega

/-- What point t writes back through window 2 is block t of the row sums of squares of the input array. -/
theorem flushed2_eq (c : Dev nD) (t : Fin cfg0.N) :
    (dat0 V c).flushed 2 t = ((cfg0.win 2).blk t).view.read (Elt Ideal) (rowSumSq (V c main_v0)) := by
  show (cfg0.win 2).cut (grid0.coords t) ((dat0 V c).after 2 t) = _
  rw [after0_2]
  unfold out0_2
  rw [View.canon_unit_zero hz2]
  simp only [View.ld_unit_zero (S := S8x128x4096) hz3]
  obtain ⟨e0, e1, e2, e3, e4, e5, e6⟩ := idx_facts t
  funext j
  obtain ⟨p, q, rfl⟩ : ∃ (p : Fin 8) (q : Fin 128), j = ix2 p q := ⟨j 0, j 1, eq_ix2 j⟩
  show k0_pay3 (iblk0 V c 0 t) (ix2 p q) = rowSumSq (V c main_v0) (((cfg0.win 2).blk t).view.emb (ix2 p q))
  refine (pay_sumsq (iblk0 V c 0 t) p q).trans ?_
  unfold rowSumSq
  refine Finset.sum_congr rfl fun l _ => ?_
  have e : ((cfg0.win 0).blk t).view.emb (ix3 p q l)
      = ix3 ((((cfg0.win 2).blk t).view.emb (ix2 p q)) 0) ((((cfg0.win 2).blk t).view.emb (ix2 p q)) 1) l := by
    funext a; apply Fin.ext
    match a with
    | ⟨0, _⟩ => show win0_0.index t (0 : Fin 3) * 8 + 1 * p.val = win0_2.index t (0 : Fin 2) * 8 + 1 * p.val; omega
    | ⟨1, _⟩ => show win0_0.index t (1 : Fin 3) * 128 + 1 * q.val = win0_2.index t (1 : Fin 2) * 128 + 1 * q.val; omega
    | ⟨2, _⟩ => show win0_0.index t (2 : Fin 3) * 4096 + 1 * l.val = l.val; omega
  have h : iblk0 V c 0 t (ix3 p q l)
      = V c main_v0 (ix3 ((((cfg0.win 2).blk t).view.emb (ix2 p q)) 0) ((((cfg0.win 2).blk t).view.emb (ix2 p q)) 1) l) := by
    show V c main_v0 (((cfg0.win 0).blk t).view.emb (ix3 p q l)) = V c main_v0 _
    exact congrArg (V c main_v0) e
  rw [h]

/-- An index of a 64×128 output is in point t's block iff each coordinate is in the block's range on its axis. -/
theorem mem_blk1 (t : Fin cfg0.N) (i : S64x128.Idx) :
    i ∈ ((cfg0.win 1).blk t).view.set ↔ ∀ a : Fin 2, win0_1.index t a * S8x128.size a ≤ (i a).val ∧ (i a).val < win0_1.index t a * S8x128.size a + S8x128.size a := by
  show i ∈ ((View.whole main_v1_0).slice (win0_1.rect t)).set ↔ _
  rw [View.set_slice_whole, Rect.mem_set_unit]
  exact Iff.rfl

theorem mem_blk2 (t : Fin cfg0.N) (i : S64x128.Idx) :
    i ∈ ((cfg0.win 2).blk t).view.set ↔ ∀ a : Fin 2, win0_2.index t a * S8x128.size a ≤ (i a).val ∧ (i a).val < win0_2.index t a * S8x128.size a + S8x128.size a := by
  show i ∈ ((View.whole main_v1_1).slice (win0_2.rect t)).set ↔ _
  rw [View.set_slice_whole, Rect.mem_set_unit]
  exact Iff.rfl

/-- Row b of an output lies in the block of the point whose block row is b / 8: the 8 blocks of 8 rows tile the 64 rows. -/
theorem cover1 (i : S64x128.Idx) : ∃ t : Fin cfg0.N, (cfg0.win 1).flush t = true ∧ i ∈ ((cfg0.win 1).blk t).view.set := by
  have hi0 : (i 0).val < 64 := (i 0).isLt
  have hi1 : (i 1).val < 128 := (i 1).isLt
  obtain ⟨t, ht⟩ := idx_onto ⟨(i 0).val / 8, by omega⟩
  obtain ⟨e0, e1, e2, e3, e4, e5, e6⟩ := idx_facts t
  have q0 : win0_1.index t (0 : Fin 2) = (i 0).val / 8 := ht
  refine ⟨t, flush0_1 t, ?_⟩
  rw [mem_blk1]
  intro a
  match a with
  | ⟨0, _⟩ => show win0_1.index t (0 : Fin 2) * 8 ≤ (i 0).val ∧ (i 0).val < win0_1.index t (0 : Fin 2) * 8 + 8; omega
  | ⟨1, _⟩ => show win0_1.index t (1 : Fin 2) * 128 ≤ (i 1).val ∧ (i 1).val < win0_1.index t (1 : Fin 2) * 128 + 128; omega

theorem cover2 (i : S64x128.Idx) : ∃ t : Fin cfg0.N, (cfg0.win 2).flush t = true ∧ i ∈ ((cfg0.win 2).blk t).view.set := by
  have hi0 : (i 0).val < 64 := (i 0).isLt
  have hi1 : (i 1).val < 128 := (i 1).isLt
  obtain ⟨t, ht⟩ := idx_onto ⟨(i 0).val / 8, by omega⟩
  obtain ⟨e0, e1, e2, e3, e4, e5, e6⟩ := idx_facts t
  have q0 : win0_1.index t (0 : Fin 2) = (i 0).val / 8 := ht
  refine ⟨t, flush0_2 t, ?_⟩
  rw [mem_blk2]
  intro a
  match a with
  | ⟨0, _⟩ => show win0_2.index t (0 : Fin 2) * 8 ≤ (i 0).val ∧ (i 0).val < win0_2.index t (0 : Fin 2) * 8 + 8; omega
  | ⟨1, _⟩ => show win0_2.index t (1 : Fin 2) * 128 ≤ (i 1).val ∧ (i 1).val < win0_2.index t (1 : Fin 2) * 128 + 128; omega

/-- After the statistics region the first output array holds the row sums of the region's input array. -/
theorem final1 (c : Dev nD) : (dat0 V c).arrAt 1 cfg0.N = rowSum (V c main_v0) :=
  (dat0 V c).arrAt_eq_of_cover 1 (rowSum (V c main_v0)) (fun t _ => flushed1_eq V c t) cover1

/-- … and the second the row sums of squares. -/
theorem final2 (c : Dev nD) : (dat0 V c).arrAt 2 cfg0.N = rowSumSq (V c main_v0) :=
  (dat0 V c).arrAt_eq_of_cover 2 (rowSumSq (V c main_v0)) (fun t _ => flushed2_eq V c t) cover2

end Cert.KernelIdeal.Stats

end
-- ==== Proof.Transform.lean ====
/-
  The transform region of the idealized kernel, read as one whole-array function. The region walks the 64×128×4096 input in
  8×2 blocks of 8 rows of the first axis by 2048 lanes; at each block the body multiplies every entry by its row's scale and
  adds its row's offset, the two 8×128 blocks of scales and offsets laid along a trailing unit axis and spread over the lanes.
  The blocks tile the array, so after the region the output array is the affine map x(b, c, l) · s(b, c) + o(b, c) of the three
  arrays the region was entered with.
-/
import proofs.«115903_j54004918780586_2_alg».proof.Proof.Gen.KernelIdeal.Frame
import Idealize.ShloMosaic.Lib.ValueIdx
import Idealize.ShloMosaic.Lib.Pipeline.Value
import Idealize.ShloMosaic.PureOps.Ideal.Laws

set_option maxRecDepth 16384

noncomputable section

namespace Cert.KernelIdeal.Transform

open Idealize.ShloMosaic Idealize.ShloMosaic.TcCoe Idealize.ShloMosaic.ValueIdx Idealize.SL.Sem Cert.KernelIdeal Cert.KernelIdeal.Gen
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The affine map applied row by row: entry (b, c, l) is x(b, c, l) · s(b, c) + o(b, c). -/
def affine (x : S64x128x4096.Idx → EReal) (s o : S64x128.Idx → EReal) : S64x128x4096.Idx → EReal :=
  fun i => x i * s (ix2 (i 0) (i 1)) + o (ix2 (i 0) (i 1))

/-- A row's scalar laid along a trailing unit axis and spread over the 2048 lanes reads back the row's scalar. -/
theorem spread_apply (v : FVec Ideal S8x128 .f32) (p : Fin 8) (q : Fin 128) (l : Fin 2048) :
    broadcastTo S8x128x2048 (shapeCast S8x128x1 (shapeCast S8x128 v shapeCasts_S8x128_S8x128) shapeCasts_S8x128_S8x128x1)
      broadcasts_S8x128x1_S8x128x2048 (ix3 p q l) = v (ix2 p q) := by
  rw [shapeCast_self]
  refine (broadcastTo_apply _ _ (ix3 p q l) (ix3 p q (0 : Fin 1)) ?_).trans ?_
  · intro a
    match a with
    | ⟨0, _⟩ => rfl
    | ⟨1, _⟩ => rfl
    | ⟨2, _⟩ => rfl
  · refine shapeCast_apply _ _ _ (ix2 p q) ?_
    rw [Shape.rowMajor_val_two, Shape.rowMajor_val_three]
    show p.val * 128 + q.val = (p.val * 128 + q.val) * 1 + 0
    omega

/-- Entry (p, q, l) of the stored value: the loaded entry times the row's scale plus the row's offset. -/
theorem pay_affine (x0 : Vec Ideal S8x128x2048 .f32) (x1 x2 : Vec Ideal S8x128 .f32) (p : Fin 8) (q : Fin 128) (l : Fin 2048) :
    k1_pay1 x0 x1 x2 (ix3 p q l) = x0 (ix3 p q l) * x1 (ix2 p q) + x2 (ix2 p q) := by
  unfold k1_pay1
  show shapeCast S8x128x2048 x0 shapeCasts_S8x128x2048_S8x128x2048 (ix3 p q l) * _ + _ = _
  rw [shapeCast_self, spread_apply, spread_apply]

/-- The printed index maps over the 8×2 grid: point (i, j) reads block (i, 0, j) of the input and block (i, 0) of the scale
    and of the offset, and writes block (i, 0, j) of the output. -/
theorem idx_facts : ∀ t : Fin cfg1.N, win1_0.index t (0 : Fin 3) = win1_3.index t (0 : Fin 3)
    ∧ win1_0.index t (1 : Fin 3) = 0 ∧ win1_0.index t (2 : Fin 3) = win1_3.index t (2 : Fin 3)
    ∧ win1_1.index t (0 : Fin 2) = win1_3.index t (0 : Fin 3) ∧ win1_1.index t (1 : Fin 2) = 0
    ∧ win1_2.index t (0 : Fin 2) = win1_3.index t (0 : Fin 3) ∧ win1_2.index t (1 : Fin 2) = 0
    ∧ win1_3.index t (1 : Fin 3) = 0 ∧ win1_3.index t (0 : Fin 3) ≤ 7 ∧ win1_3.index t (2 : Fin 3) ≤ 1 :=
  (by decide +kernel : ∀ t : Fin grid1.N, _)

/-- Every block of the output is some point's. -/
theorem idx_onto : ∀ (q0 : Fin 8) (q2 : Fin 2), ∃ t : Fin cfg1.N, win1_3.index t (0 : Fin 3) = q0.val ∧ win1_3.index t (2 : Fin 3) = q2.val :=
  (by decide +kernel : ∀ (q0 : Fin 8) (q2 : Fin 2), ∃ t : Fin grid1.N, win1_3.index t (0 : Fin 3) = q0.val ∧ win1_3.index t (2 : Fin 3) = q2.val)

/-- What point t writes back is block t of the affine map of the region's three input arrays. -/
theorem flushed3_eq (c : Dev nD) (t : Fin cfg1.N) :
    (dat1 V c).flushed 3 t = ((cfg1.win 3).blk t).view.read (Elt Ideal) (affine (V c main_v0) (V c main_v69) (V c main_v76)) := by
  show (cfg1.win 3).cut (grid1.coords t) ((dat1 V c).after 3 t) = _
  rw [after1_3]
  unfold out1_3
  rw [View.canon_unit_zero hz3]
  simp only [View.ld_unit_zero (S := S8x128x2048) hz3, View.ld_unit_zero (S := S8x128) hz2]
  obtain ⟨e0, e1, e2, e3, e4, e5, e6, e7, e8, e9⟩ := idx_facts t
  funext j
  obtain ⟨p, q, l, rfl⟩ : ∃ (p : Fin 8) (q : Fin 128) (l : Fin 2048), j = ix3 p q l := ⟨j 0, j 1, j 2, eq_ix3 j⟩
  show k1_pay1 (iblk1 V c 0 t) (iblk1 V c 1 t) (iblk1 V c 2 t) (ix3 p q l)
    = affine (V c main_v0) (V c main_v69) (V c main_v76) (((cfg1.win 3).blk t).view.emb (ix3 p q l))
  refine (pay_affine (iblk1 V c 0 t) (iblk1 V c 1 t) (iblk1 V c 2 t) p q l).trans ?_
  unfold affine
  have h0 : iblk1 V c 0 t (ix3 p q l) = V c main_v0 (((cfg1.win 3).blk t).view.emb (ix3 p q l)) := by
    show V c main_v0 (((cfg1.win 0).blk t).view.emb (ix3 p q l)) = V c main_v0 _
    refine congrArg (V c main_v0) ?_
    funext a; apply Fin.ext
    match a with
    | ⟨0, _⟩ => show win1_0.index t (0 : Fin 3) * 8 + 1 * p.val = win1_3.index t (0 : Fin 3) * 8 + 1 * p.val; omega
    | ⟨1, _⟩ => show win1_0.index t (1 : Fin 3) * 128 + 1 * q.val = win1_3.index t (1 : Fin 3) * 128 + 1 * q.val; omega
    | ⟨2, _⟩ => show win1_0.index t (2 : Fin 3) * 2048 + 1 * l.val = win1_3.index t (2 : Fin 3) * 2048 + 1 * l.val; omega
  have h1 : iblk1 V c 1 t (ix2 p q)
      = V c main_v69 (ix2 ((((cfg1.win 3).blk t).view.emb (ix3 p q l)) 0) ((((cfg1.win 3).blk t).view.emb (ix3 p q l)) 1)) := by
    show V c main_v69 (((cfg1.win 1).blk t).view.emb (ix2 p q)) = V c main_v69 _
    refine congrArg (V c main_v69) ?_
    funext a; apply Fin.ext
    match a with
    | ⟨0, _⟩ => show win1_1.index t (0 : Fin 2) * 8 + 1 * p.val = win1_3.index t (0 : Fin 3) * 8 + 1 * p.val; omega
    | ⟨1, _⟩ => show win1_1.index t (1 : Fin 2) * 128 + 1 * q.val = win1_3.index t (1 : Fin 3) * 128 + 1 * q.val; omega
  have h2 : iblk1 V c 2 t (ix2 p q)
      = V c main_v76 (ix2 ((((cfg1.win 3).blk t).view.emb (ix3 p q l)) 0) ((((cfg1.win 3).blk t).view.emb (ix3 p q l)) 1)) := by
    show V c main_v76 (((cfg1.win 2).blk t).view.emb (ix2 p q)) = V c main_v76 _
    refine congrArg (V c main_v76) ?_
    funext a; apply Fin.ext
    match a with
    | ⟨0, _⟩ => show win1_2.index t (0 : Fin 2) * 8 + 1 * p.val = win1_3.index t (0 : Fin 3) * 8 + 1 * p.val; omega
    | ⟨1, _⟩ => show win1_2.index t (1 : Fin 2) * 128 + 1 * q.val = win1_3.index t (1 : Fin 3) * 128 + 1 * q.val; omega
  rw [h0, h1, h2]

/-- An index of the 64×128×4096 output is in point t's block iff each coordinate is in the block's range on its axis. -/
theorem mem_blk3 (t : Fin cfg1.N) (i : S64x128x4096.Idx) :
    i ∈ ((cfg1.win 3).blk t).view.set ↔ ∀ a : Fin 3, win1_3.index t a * S8x128x2048.size a ≤ (i a).val ∧ (i a).val < win1_3.index t a * S8x128x2048.size a + S8x128x2048.size a := by
  show i ∈ ((View.whole main_v77).slice (win1_3.rect t)).set ↔ _
  rw [View.set_slice_whole, Rect.mem_set_unit]
  exact Iff.rfl

/-- Entry (b, c, l) lies in the block of the point (b / 8, l / 2048): the 8×2 blocks tile the array. -/
theorem cover3 (i : S64x128x4096.Idx) : ∃ t : Fin cfg1.N, (cfg1.win 3).flush t = true ∧ i ∈ ((cfg1.win 3).blk t).view.set := by
  have hi0 : (i 0).val < 64 := (i 0).isLt
  have hi1 : (i 1).val < 128 := (i 1).isLt
  have hi2 : (i 2).val < 4096 := (i 2).isLt
  obtain ⟨t, ht0, ht2⟩ := idx_onto ⟨(i 0).val / 8, by omega⟩ ⟨(i 2).val / 2048, by omega⟩
  obtain ⟨e0, e1, e2, e3, e4, e5, e6, e7, e8, e9⟩ := idx_facts t
  have q0 : win1_3.index t (0 : Fin 3) = (i 0).val / 8 := ht0
  have q2 : win1_3.index t (2 : Fin 3) = (i 2).val / 2048 := ht2
  refine ⟨t, flush1_3 t, ?_⟩
  rw [mem_blk3]
  intro a
  match a with
  | ⟨0, _⟩ => show win1_3.index t (0 : Fin 3) * 8 ≤ (i 0).val ∧ (i 0).val < win1_3.index t (0 : Fin 3) * 8 + 8; omega
  | ⟨1, _⟩ => show win1_3.index t (1 : Fin 3) * 128 ≤ (i 1).val ∧ (i 1).val < win1_3.index t (1 : Fin 3) * 128 + 128; omega
  | ⟨2, _⟩ => show win1_3.index t (2 : Fin 3) * 2048 ≤ (i 2).val ∧ (i 2).val < win1_3.index t (2 : Fin 3) * 2048 + 2048; omega

/-- After the transform region its output array holds the affine map of the region's three input arrays. -/
theorem final3 (c : Dev nD) : (dat1 V c).arrAt 3 cfg1.N = affine (V c main_v0) (V c main_v69) (V c main_v76) :=
  (dat1 V c).arrAt_eq_of_cover 3 (affine (V c main_v0) (V c main_v69) (V c main_v76)) (fun t _ => flushed3_eq V c t) cover3

end Cert.KernelIdeal.Transform

end
-- ==== Proof.Glue.lean ====
/-
  The host arithmetic of the idealized kernel between its two regions, as named functions, and what each stretch of host
  operations leaves. From the per-row sums S1 and sums of squares S2 the program forms, per subject s and channel c: the totals
  over the batch rows of subject s, mean = total1 / n and var = max(total2 / n − mean², 0) with n = 262144, inv = (var + eps)^(-1/2),
  z = ((−mean · inv) · γ + β) kept for subjects present, and z's sum over subjects; then, gathered back to the batch rows,
  scale = inv · γ and bias = ((β + ztot) − z) − (mean · inv) · γ. The first and last stretches are one reshape each.
-/
import proofs.«115903_j54004918780586_2_alg».proof.Proof.Gen.KernelIdeal.Frame
import Idealize.ShloMosaic.Lib.StableHlo.Run
import Idealize.ShloMosaic.PureOps.Ideal

set_option maxRecDepth 16384

noncomputable section

namespace Cert.KernelIdeal.Glue

open Idealize.ShloMosaic Idealize.ShloMosaic.TcCoe Idealize.SL.Sem Idealize.ShloMosaic.StableHlo Cert.KernelIdeal Cert.KernelIdeal.Gen

/-- A 4×128 table of extended reals (one row per subject, one column per channel). -/
abbrev Tab := FVec Ideal S4x128 .f32
/-- A 64×128 table (one row per batch entry). -/
abbrev Rows := FVec Ideal S64x128 .f32
/-- The 64 subject indices. -/
abbrev Subj := IVec S64 32

def zero4 : Tab := broadcastInDim S4x128 ![] bcast_S_S4x128 (constant (F := Ideal) S_ .f32 0x00000000#32)
/-- The subject indices as a 64×1 column: the scatter's index operand. -/
def col (idx : Subj) : IVec S64x1 32 := broadcastInDim S64x1 ![0] bcast_S64_S64x1_0 idx
/-- Per-subject totals of a per-row statistic: row b of S is added into row idx b. -/
def seg (S : Rows) (idx : Subj) : Tab := Host.scatterAdd (F := Ideal) scatter_S4x128_S64x1_S64x128_1_0_0_1 zero4 (col idx) S
def nB : Tab := broadcastInDim S4x128 ![] bcast_S_S4x128 (constant (F := Ideal) S_ .f32 0x48800000#32)
def mean (S1 : Rows) (idx : Subj) : Tab := Host.divf (F := Ideal) (seg S1 idx) nB
def var (S1 S2 : Rows) (idx : Subj) : Tab := subf (Host.divf (F := Ideal) (seg S2 idx) nB) (mulf (mean S1 idx) (mean S1 idx))
/-- The kernel's guard: the variance clamped at zero from below. -/
def clamp (v : Tab) : Tab := maximumf v zero4
def epsB : Tab := broadcastInDim S4x128 ![] bcast_S_S4x128 (constant (F := Ideal) S_ .f32 0x3727C5AC#32)
def inv (v : Tab) : Tab := Host.rsqrt (F := Ideal) (addf v epsB)
/-- 1 for a subject some batch entry names, 0 for one none does, spread over the channels. -/
def present (idx : Subj) : Tab :=
  broadcastInDim S4x128 ![0, 1] bcast_S4x1_S4x128_0_1 (broadcastInDim S4x1 ![0] bcast_S4_S4x1_0 (uitofp (F := Ideal) .f32
    (cmpf (F := Ideal) .ogt
      (Host.scatterAdd (F := Ideal) scatter_S4_S64x1_S64_n_0_0_1 (broadcastInDim S4 ![] bcast_S_S4 (constant (F := Ideal) S_ .f32 0x00000000#32)) (col idx)
        (broadcastInDim S64 ![] bcast_S_S64 (constant (F := Ideal) S_ .f32 0x3F800000#32)))
      (broadcastInDim S4 ![] bcast_S_S4 (constant (F := Ideal) S_ .f32 0x00000000#32)))))
/-- What a subject's normalization assigns to a zeroed position: ((−mean)·inv)·γ + β, kept only for subjects present. -/
def z (mn iv γ β : Tab) (idx : Subj) : Tab := mulf (addf (mulf (mulf (Host.negf (F := Ideal) mn) iv) γ) β) (present idx)
def ztot (zz : Tab) : FVec Ideal S128 .f32 := Host.reduceAdd (F := Ideal) zz (constant (F := Ideal) S_ .f32 0x00000000#32) reducesTo_S4x128_S128_d0 h_S_
/-- The gather's index operand: a negative subject index wrapped by 4, as a 64×1 column. -/
def gidx (idx : Subj) : IVec S64x1 32 :=
  broadcastInDim S64x1 ![0] bcast_S64_S64x1_0
    (select (cmpi .slt idx (broadcastInDim S64 ![] bcast_S_S64 (constantI S_ 32 0#32))) (addi idx (broadcastInDim S64 ![] bcast_S_S64 (constantI S_ 32 4#32))) idx)
/-- Row b of the result is row idx b of the table. -/
def take (t : Tab) (idx : Subj) : Rows := Host.gather gather_S4x128_S64x1_S64x128_1_0_n_n_0_1_1128 t (gidx idx)
/-- The per-row scale the transform region multiplies by. -/
def scale (S1 S2 : Rows) (idx : Subj) (γ : Tab) : Rows := mulf (take (inv (clamp (var S1 S2 idx))) idx) (take γ idx)
/-- The per-row offset the transform region adds. -/
def bias (S1 S2 : Rows) (idx : Subj) (γ β : Tab) : Rows :=
  subf (subf (addf (take β idx) (broadcastInDim S64x128 ![0, 1] bcast_S1x128_S64x128_0_1 (broadcastInDim S1x128 ![1] bcast_S128_S1x128_1
      (ztot (z (mean S1 idx) (inv (clamp (var S1 S2 idx))) γ β idx)))))
    (take (z (mean S1 idx) (inv (clamp (var S1 S2 idx))) γ β idx) idx))
    (mulf (mulf (take (mean S1 idx) idx) (take (inv (clamp (var S1 S2 idx))) idx)) (take γ idx))

variable (m : (ℓ : Loc nD τ sig) → Buf (Elt Ideal) ℓ) (ρ : Dev nD → PrngReg)

set_option maxHeartbeats 4000000 in
/-- At the transform region's entry the scale array is `scale` of the two statistics arrays and the arguments as the
    statistics region left them. -/
theorem scale_at_entry (c : Dev nD) :
    W3 m ρ c (Proc.devRef .tc main_v69)
      = scale (W2 m ρ c (Proc.devRef .tc main_v1_0)) (W2 m ρ c (Proc.devRef .tc main_v1_1)) (W2 m ρ c (Proc.devRef .tc main_arg1)) (W2 m ρ c (Proc.devRef .tc main_arg2)) := by
  show StableHlo.after hostOps1 (W2 m ρ c) (Proc.devRef .tc main_v69) = _
  after_results_simp
  rfl

set_option maxHeartbeats 4000000 in
/-- … and the offset array is `bias` of them. -/
theorem bias_at_entry (c : Dev nD) :
    W3 m ρ c (Proc.devRef .tc main_v76)
      = bias (W2 m ρ c (Proc.devRef .tc main_v1_0)) (W2 m ρ c (Proc.devRef .tc main_v1_1)) (W2 m ρ c (Proc.devRef .tc main_arg1)) (W2 m ρ c (Proc.devRef .tc main_arg2)) (W2 m ρ c (Proc.devRef .tc main_arg3)) := by
  show StableHlo.after hostOps1 (W2 m ρ c) (Proc.devRef .tc main_v76) = _
  after_results_simp
  rfl

set_option maxHeartbeats 4000000 in
/-- The host arithmetic between the regions does not write the flattened input. -/
theorem x_at_entry (c : Dev nD) : W3 m ρ c (Proc.devRef .tc main_v0) = W2 m ρ c (Proc.devRef .tc main_v0) := by
  show StableHlo.after hostOps1 (W2 m ρ c) (Proc.devRef .tc main_v0) = _
  after_results_simp

/-- The first stretch is one reshape: the statistics region is entered with the input flattened to 64×128×4096. -/
theorem flat_in (c : Dev nD) :
    W1 m ρ c (Proc.devRef .tc main_v0)
      = shapeCast S64x128x4096 (m ((c : Thread nD τ).loc main_arg0)) shapeCasts_S64x128x64x64_S64x128x4096 := by
  show StableHlo.after hostOps0 (W0 m ρ c) (Proc.devRef .tc main_v0) = _
  after_results_simp
  rfl

theorem arg1_in (c : Dev nD) : W1 m ρ c (Proc.devRef .tc main_arg1) = m ((c : Thread nD τ).loc main_arg1) := by
  show StableHlo.after hostOps0 (W0 m ρ c) (Proc.devRef .tc main_arg1) = _
  after_results_simp
theorem arg2_in (c : Dev nD) : W1 m ρ c (Proc.devRef .tc main_arg2) = m ((c : Thread nD τ).loc main_arg2) := by
  show StableHlo.after hostOps0 (W0 m ρ c) (Proc.devRef .tc main_arg2) = _
  after_results_simp
theorem arg3_in (c : Dev nD) : W1 m ρ c (Proc.devRef .tc main_arg3) = m ((c : Thread nD τ).loc main_arg3) := by
  show StableHlo.after hostOps0 (W0 m ρ c) (Proc.devRef .tc main_arg3) = _
  after_results_simp

/-- The last stretch is one reshape: the result is the transform region's output recast to 64×128×64×64. -/
theorem out_last (c : Dev nD) :
    W5 m ρ c (Proc.devRef .tc main_v78)
      = shapeCast S64x128x64x64 (W4 m ρ c (Proc.devRef .tc main_v77)) shapeCasts_S64x128x4096_S64x128x64x64 := by
  show StableHlo.after hostOps2 (W4 m ρ c) (Proc.devRef .tc main_v78) = _
  after_results_simp
  rfl

end Cert.KernelIdeal.Glue

end
-- ==== Proof.KernelValue.lean ====
/-
  The idealized kernel's result as one function of its four arguments. Unfolding the last boundary's contents through the
  final reshape, the transform region (an affine map row by row), the host arithmetic (scale and bias from the row statistics),
  the statistics region (row sums and row sums of squares) and the first reshape gives: with xf the input flattened to
  64×128×4096, result = reshape (xf(b, c, l) · scale(b, c) + bias(b, c)), scale and bias the functions of the row statistics of xf.
-/
import proofs.«115903_j54004918780586_2_alg».proof.Proof.KernelRun
import proofs.«115903_j54004918780586_2_alg».proof.Proof.Stats
import proofs.«115903_j54004918780586_2_alg».proof.Proof.Transform
import proofs.«115903_j54004918780586_2_alg».proof.Proof.Glue

set_option maxRecDepth 16384

noncomputable section

namespace Cert.KernelIdeal.Whole

open Idealize.ShloMosaic Idealize.ShloMosaic.TcCoe Idealize.SL.Sem Cert.KernelIdeal Cert.KernelIdeal.Gen

/-- The 64×128×64×64 input flattened to 64×128×4096. -/
def flat (x : FVec Ideal S64x128x64x64 .f32) : FVec Ideal S64x128x4096 .f32 :=
  shapeCast S64x128x4096 x shapeCasts_S64x128x64x64_S64x128x4096

/-- The kernel's result as a function of its arguments. -/
def result (x : FVec Ideal S64x128x64x64 .f32) (idx : IVec S64 32) (γ β : FVec Ideal S4x128 .f32) : FVec Ideal S64x128x64x64 .f32 :=
  shapeCast S64x128x64x64
    (Transform.affine (flat x)
      (Glue.scale (Stats.rowSum (flat x)) (Stats.rowSumSq (flat x)) idx γ)
      (Glue.bias (Stats.rowSum (flat x)) (Stats.rowSumSq (flat x)) idx γ β))
    shapeCasts_S64x128x4096_S64x128x64x64

variable (m : (ℓ : Loc nD τ sig) → Buf (Elt Ideal) ℓ) (ρ : Dev nD → PrngReg)

theorem entry0_flat (c : Dev nD) : V1 m ρ c main_v0 = flat (m ((c : Thread nD τ).loc main_arg0)) := Glue.flat_in m ρ c

/-- The statistics region never writes its input window back. -/
theorem noflush_in : ∀ t : Fin cfg0.N, (cfg0.win 0).flush t = false :=
  (by decide +kernel : ∀ t : Fin grid0.N, win0_0.flush t = false)

/-- So the flattened input leaves the statistics region as it entered. -/
theorem exit0_flat (c : Dev nD) : W2 m ρ c (Proc.devRef .tc main_v0) = flat (m ((c : Thread nD τ).loc main_arg0)) := by
  refine (W2_arr m ρ c 0).trans ?_
  funext i
  rw [(dat0 (V1 m ρ) c).arrAt_eq_piecewise 0 ((dat0 (V1 m ρ) c).A 0)
    (fun t ht => absurd ht (by rw [noflush_in t]; decide)) i, ite_self, A_eq0]
  exact congrFun (entry0_flat m ρ c) i
theorem exit0_arg1 (c : Dev nD) : W2 m ρ c (Proc.devRef .tc main_arg1) = m ((c : Thread nD τ).loc main_arg1) :=
  (W2_of_ne m ρ c main_arg1 (by decide)).trans (Glue.arg1_in m ρ c)
theorem exit0_arg2 (c : Dev nD) : W2 m ρ c (Proc.devRef .tc main_arg2) = m ((c : Thread nD τ).loc main_arg2) :=
  (W2_of_ne m ρ c main_arg2 (by decide)).trans (Glue.arg2_in m ρ c)
theorem exit0_arg3 (c : Dev nD) : W2 m ρ c (Proc.devRef .tc main_arg3) = m ((c : Thread nD τ).loc main_arg3) :=
  (W2_of_ne m ρ c main_arg3 (by decide)).trans (Glue.arg3_in m ρ c)

/-- After the statistics region: the row sums of the flattened input … -/
theorem exit0_sum (c : Dev nD) : W2 m ρ c (Proc.devRef .tc main_v1_0) = Stats.rowSum (flat (m ((c : Thread nD τ).loc main_arg0))) := by
  refine (W2_arr m ρ c 1).trans ?_
  rw [Stats.final1 (V1 m ρ) c, entry0_flat]
/-- … and the row sums of its squares. -/
theorem exit0_sumsq (c : Dev nD) : W2 m ρ c (Proc.devRef .tc main_v1_1) = Stats.rowSumSq (flat (m ((c : Thread nD τ).loc main_arg0))) := by
  refine (W2_arr m ρ c 2).trans ?_
  rw [Stats.final2 (V1 m ρ) c, entry0_flat]

/-- The last boundary's contents at the result buffer is `result` of the launch contents of the arguments. -/
theorem last_eq (c : Dev nD) :
    W5 m ρ c (Proc.devRef .tc main_v78)
      = result (m ((c : Thread nD τ).loc main_arg0)) (m ((c : Thread nD τ).loc main_arg1)) (m ((c : Thread nD τ).loc main_arg2)) (m ((c : Thread nD τ).loc main_arg3)) := by
  rw [Glue.out_last]
  unfold result
  refine congrArg (fun a => shapeCast S64x128x64x64 a shapeCasts_S64x128x4096_S64x128x64x64) ?_
  refine (W4_arr m ρ c 3).trans ?_
  rw [Transform.final3 (V3 m ρ) c]
  have hx : V3 m ρ c main_v0 = flat (m ((c : Thread nD τ).loc main_arg0)) := (Glue.x_at_entry m ρ c).trans (exit0_flat m ρ c)
  have hs : V3 m ρ c main_v69 = _ := Glue.scale_at_entry m ρ c
  have hb : V3 m ρ c main_v76 = _ := Glue.bias_at_entry m ρ c
  rw [hx, hs, hb, exit0_sum, exit0_sumsq, exit0_arg1, exit0_arg2, exit0_arg3]

/-- Every weakly fair execution of the idealized kernel terminates, nothing faulting, with the result buffer at `result`
    of the arguments and the arguments as launched. -/
theorem run : θ_run defs (onTc (τ := τ) (main (F := Ideal))) ⟨m, fun _ => 0, ρ⟩ (fun r => ∀ c : Dev nD,
      r.2.mem ((c.tc : Thread nD τ).loc main_v78)
        = result (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (last_eq m ρ c), (h c).2⟩) (HandRun.run_last m ρ)

end Cert.KernelIdeal.Whole

end
-- ==== Proof.LibExtReal.lean ====
/- Extended reals that are real numbers are closed under the field operations (sum, difference,
   product, negation, maximum, finite sums, division by a nonzero real, reciprocal square root of a
   positive real), so an identity of real arithmetic transfers to the extended reals once every letter
   in it is known to be a real number. Also: the real numbers a few float constants denote. -/
import Idealize.ShloMosaic.PureOps.Ideal

noncomputable section

namespace Cert.LibExtReal

open Idealize.ShloMosaic

/-- An extended real is a real number: it is neither of the two infinities. -/
def IsReal (a : EReal) : Prop := ∃ r : ℝ, a = (r : EReal)

/-- A real number, read as an extended real, is a real number. -/
theorem IsReal.coe (r : ℝ) : IsReal (r : EReal) := ⟨r, rfl⟩

/-- Zero is a real number. -/
theorem IsReal.zero : IsReal (0 : EReal) := ⟨0, rfl⟩

/-- The sum of two real numbers is a real number. -/
theorem IsReal.add {a b : EReal} (ha : IsReal a) (hb : IsReal b) : IsReal (a + b) := by
  obtain ⟨x, rfl⟩ := ha
  obtain ⟨y, rfl⟩ := hb
  exact ⟨x + y, (EReal.coe_add x y).symm⟩

/-- The difference of two real numbers is a real number. -/
theorem IsReal.sub {a b : EReal} (ha : IsReal a) (hb : IsReal b) : IsReal (a - b) := by
  obtain ⟨x, rfl⟩ := ha
  obtain ⟨y, rfl⟩ := hb
  exact ⟨x - y, (EReal.coe_sub x y).symm⟩

/-- The product of two real numbers is a real number. -/
theorem IsReal.mul {a b : EReal} (ha : IsReal a) (hb : IsReal b) : IsReal (a * b) := by
  obtain ⟨x, rfl⟩ := ha
  obtain ⟨y, rfl⟩ := hb
  exact ⟨x * y, (EReal.coe_mul x y).symm⟩

/-- The negative of a real number is a real number. -/
theorem IsReal.neg {a : EReal} (ha : IsReal a) : IsReal (-a) := by
  obtain ⟨x, rfl⟩ := ha
  exact ⟨-x, (EReal.coe_neg x).symm⟩

/-- The larger of two real numbers is a real number. -/
theorem IsReal.max {a b : EReal} (ha : IsReal a) (hb : IsReal b) : IsReal (max a b) := by
  rcases max_choice a b with h | h
  · rw [h]; exact ha
  · rw [h]; exact hb

/-- A finite sum of real numbers, taken in the extended reals, is their sum as real numbers. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih =>
    rw [Finset.sum_insert ha, Finset.sum_insert ha, ih, EReal.coe_add]

/-- A finite sum of real numbers is a real number. -/
theorem IsReal.sum {ι : Type*} (s : Finset ι) (f : ι → EReal) (h : ∀ i ∈ s, IsReal (f i)) :
    IsReal (∑ i ∈ s, f i) := by
  classical
  induction s using Finset.induction_on with
  | empty => simpa using IsReal.zero
  | insert a s ha ih =>
    rw [Finset.sum_insert ha]
    exact IsReal.add (h a (Finset.mem_insert_self a s))
      (ih (fun i hi => h i (Finset.mem_insert_of_mem hi)))

/-- Dividing a real number by a nonzero real number is division of real numbers. -/
theorem div_coe_coe (x y : ℝ) (hy : y ≠ 0) :
    Ideal.div (x : EReal) (y : EReal) = ((x / y : ℝ) : EReal) := by
  rw [Ideal.div_coe hy, ← EReal.coe_mul]
  congr 1
  rw [mul_one_div]

/-- A real number divided by a nonzero real number is a real number. -/
theorem IsReal.div_coe {a : EReal} (ha : IsReal a) {y : ℝ} (hy : y ≠ 0) :
    IsReal (Ideal.div a (y : EReal)) := by
  obtain ⟨x, rfl⟩ := ha
  exact ⟨x / y, div_coe_coe x y hy⟩

/-- The reciprocal square root of a positive real number is the reciprocal of its square root. -/
theorem rsqrt_coe_pos {r : ℝ} (hr : 0 < r) :
    Ideal.rsqrt (r : EReal) = (((Real.sqrt r)⁻¹ : ℝ) : EReal) := by
  rw [Ideal.rsqrt_coe, if_neg (not_lt.mpr hr.le), if_neg hr.ne']

/-- The reciprocal square root of a positive real number is a real number. -/
theorem IsReal.rsqrt_of_pos {a : EReal} (h : ∃ r : ℝ, 0 < r ∧ a = (r : EReal)) :
    IsReal (Ideal.rsqrt a) := by
  obtain ⟨r, hr, rfl⟩ := h
  exact ⟨(Real.sqrt r)⁻¹, rsqrt_coe_pos hr⟩

/-- The pattern of `+0.0` denotes zero. -/
theorem ofBits_zero : Ideal.ofBits .f32 0x00000000#32 = (0 : EReal) := by
  simp [Ideal.ofBits, Ideal.ieee]

/-- The pattern of `1.0` denotes the real number one. -/
theorem ofBits_one : Ideal.ofBits .f32 0x3F800000#32 = ((1 : ℝ) : EReal) := by
  simp [Ideal.ofBits, Ideal.ieee, -EReal.coe_mul]; norm_num

/-- The pattern of `262144.0` (two to the eighteenth) denotes the real number 262144. -/
theorem ofBits_n : Ideal.ofBits .f32 0x48800000#32 = ((262144 : ℝ) : EReal) := by
  simp [Ideal.ofBits, Ideal.ieee, -EReal.coe_mul]; norm_num

/-- The pattern of the single-precision number nearest to one hundred-thousandth denotes a positive
    real number (its exact value is not needed). -/
theorem ofBits_eps : ∃ e : ℝ, 0 < e ∧ Ideal.ofBits .f32 0x3727C5AC#32 = (e : EReal) := by
  refine ⟨_, ?_, by simp [Ideal.ofBits, Ideal.ieee, -EReal.coe_mul]; rfl⟩
  positivity

/-- The larger of a nonnegative real number and zero is that number. -/
theorem max_eq_left_of_nonneg_coe {v : ℝ} (hv : 0 ≤ v) :
    max ((v : ℝ) : EReal) (0 : EReal) = ((v : ℝ) : EReal) := by
  apply max_eq_left
  exact_mod_cast hv

/-- The regrouping of an affine map: with every letter a real number,
    x·(I·Γ) + (((B + Zt) − Zb) − (M·I)·Γ) = (((x − M)·I)·Γ + B) + (Zt − Zb). -/
theorem affine_regroup {x M I Γ B Zt Zb : EReal} (hx : IsReal x) (hM : IsReal M) (hI : IsReal I)
    (hΓ : IsReal Γ) (hB : IsReal B) (hZt : IsReal Zt) (hZb : IsReal Zb) :
    x * (I * Γ) + (((B + Zt) - Zb) - (M * I) * Γ) = (((x - M) * I) * Γ + B) + (Zt - Zb) := by
  obtain ⟨x, rfl⟩ := hx
  obtain ⟨M, rfl⟩ := hM
  obtain ⟨I, rfl⟩ := hI
  obtain ⟨Γ, rfl⟩ := hΓ
  obtain ⟨B, rfl⟩ := hB
  obtain ⟨Zt, rfl⟩ := hZt
  obtain ⟨Zb, rfl⟩ := hZb
  simp only [← EReal.coe_mul, ← EReal.coe_add, ← EReal.coe_sub]
  congr 1
  ring

end Cert.LibExtReal

end
-- ==== Proof.FiniteInputs.lean ====
/- An extended real whose absolute value is strictly below +∞ is a real number: the absolute value
   max a (-a) of either infinity is +∞, which is not below +∞, so only a real number remains.
   The precondition is a conjunction of three "all entries" tests, one per float input, each entry
   tested by |entry| < +∞; a conjunction that holds gives each test, and an "all entries" test that
   holds gives the test at every entry. Hence every entry of each float input is a real number. -/
import proofs.«115903_j54004918780586_2_alg».proof.Proof.Gen.Pre_finite_inputs
import proofs.«115903_j54004918780586_2_alg».proof.Proof.LibExtReal
import Idealize.ShloMosaic.Lib.ReduceAll
import Idealize.ShloMosaic.Lib.ValueIdx
import Idealize.ShloMosaic.PureOps.Ideal

noncomputable section

namespace Cert.FiniteInputs

open Idealize.ShloMosaic Idealize.ShloMosaic.ValueIdx Cert.Pre_finite_inputs Cert.Pre_finite_inputs.Gen Cert.LibExtReal

/-- The bit pattern with all exponent bits set and no fraction bits denotes +∞. -/
private theorem ofBits_inf : Ideal.ofBits .f32 0x7F800000#32 = (⊤ : EReal) := by
  simp [Ideal.ofBits, Ideal.ieee]

/-- An extended real whose absolute value max a (-a) is below +∞ is a real number. -/
private theorem isReal_of_abs_lt_top (a : EReal) (h : max a (-a) < (⊤ : EReal)) : IsReal a := by
  induction a using EReal.rec with
  | bot => simp at h
  | coe r => exact ⟨r, rfl⟩
  | top => simp at h

/-- The index type of the shape with no axes has one element. -/
private instance : Subsingleton S_.Idx := ⟨fun a b => funext fun d => d.elim0⟩

/-- One array: if the "all entries" test of |entry| < +∞ holds, every entry is a real number. -/
private theorem reals_of_all {s : Shape} {axes : List (Fin s.rank)}
    (hb : S_.BroadcastsInDim s (![] : Fin 0 → Fin s.rank)) (hr : s.ReducesTo axes S_) (hu : 0 < S_.numel)
    (v : FVec Ideal s .f32)
    (e : Host.reduce IntOp.andi
          (cmpf .olt (Host.absf v) (broadcastInDim s ![] hb (constant S_ .f32 0x7F800000#32)))
          (constantI S_ 1 1#1) hr hu ix0 = 1#1) :
    ∀ i, IsReal (v i) := by
  intro i
  have hi := Host.reduce_andi_all _ _ hr hu ix0 e i
  apply isReal_of_abs_lt_top
  simp only [cmpf, Host.absf, broadcastInDim, constant, Ideal.ofBits_def, Ideal.hostAbsf_def] at hi
  change Ideal.cmp .olt (max (v i) (-(v i))) (Ideal.ofBits .f32 0x7F800000#32) = 1#1 at hi
  rw [ofBits_inf] at hi
  change BitVec.ofBool (decide (max (v i) (-(v i)) < (⊤ : EReal))) = 1#1 at hi
  have key : ∀ b : Bool, BitVec.ofBool b = 1#1 → b = true := by decide
  exact of_decide_eq_true (key _ hi)

theorem reals_of_pre (x : FVec Ideal S64x128x64x64 .f32) (idx : IVec S64 32) (γ β : FVec Ideal S4x128 .f32)
    (h : Cert.Pre_finite_inputs.fn (F := Ideal) x idx γ β = fun _ => 1#1) :
    (∀ i, IsReal (x i)) ∧ (∀ p, IsReal (γ p)) ∧ (∀ p, IsReal (β p)) := by
  have h0 := congrFun h ValueIdx.ix0
  dsimp only [fn] at h0
  obtain ⟨h1, hβ⟩ := IntOp.andi_eq_one.1 h0
  obtain ⟨hx, hγ⟩ := IntOp.andi_eq_one.1 h1
  exact ⟨reals_of_all _ _ _ x hx, reals_of_all _ _ _ γ hγ, reals_of_all _ _ _ β hβ⟩

end Cert.FiniteInputs

end
-- ==== Proof.RefSums.lean ====
/- Two facts about sums over index sets.
   (A) A sum over the two trailing axes of a four-axis array: the indices that agree with a given pair of
       leading coordinates are exactly the pairs of trailing coordinates, so the sum over them is a double sum.
   (B) A scatter of 64 rows of 128 columns into an array of 4 rows of 128 columns keeps the column, so the
       update elements that land on one target element lie in one column and are told apart by their row:
       there are at most 64 of them. -/
import proofs.«115903_j54004918780586_2_alg».proof.Proof.Gen.ReferenceIdeal
import Idealize.ShloMosaic.Lib.ValueIdx
import Idealize.ShloMosaic.PureOps.Ideal

noncomputable section

namespace Cert.RefSums

open Idealize.ShloMosaic Idealize.ShloMosaic.ValueIdx Cert.ReferenceIdeal Cert.ReferenceIdeal.Gen

/-- Dropping the two trailing coordinates of a four-axis index leaves its two leading coordinates. -/
theorem drop_eq (hr : S64x128x64x64.ReducesTo [2, 3] S64x128) (i : S64x128x64x64.Idx) :
    hr.drop i = ix2 (i 0) (i 1) := by
  funext b
  match b with
  | ⟨0, _⟩ => rfl
  | ⟨1, _⟩ => rfl

/-- The sum over the two trailing axes as a double sum, whichever proof of the shape relation is used. -/
theorem reduce_hw_any (hr : S64x128x64x64.ReducesTo [2, 3] S64x128) (x : S64x128x64x64.Idx → EReal)
    (init : EReal) (j : S64x128.Idx) :
    Ideal.hostReduceAdd hr x init j = init + ∑ h : Fin 64, ∑ w : Fin 64, x (ix4 (j 0) (j 1) h w) := by
  unfold Ideal.hostReduceAdd
  congr 1
  rw [← Fintype.sum_prod_type' (fun (h : Fin 64) (w : Fin 64) => x (ix4 (j 0) (j 1) h w))]
  refine Finset.sum_nbij' (fun i => ((i 2, i 3) : Fin 64 × Fin 64)) (fun p => ix4 (j 0) (j 1) p.1 p.2)
    ?_ ?_ ?_ ?_ ?_
  · intro i _
    exact Finset.mem_univ _
  · intro p _
    simp only [Finset.mem_filter, Finset.mem_univ, true_and]
    rw [drop_eq]
    exact (eq_ix2 j).symm
  · intro i hi
    simp only [Finset.mem_filter, Finset.mem_univ, true_and] at hi
    rw [drop_eq] at hi
    subst hi
    exact (eq_ix4 i).symm
  · intro p _
    rfl
  · intro i hi
    simp only [Finset.mem_filter, Finset.mem_univ, true_and] at hi
    rw [drop_eq] at hi
    subst hi
    exact congrArg x (eq_ix4 i)

/-- The sum over the two trailing axes as a double sum. -/
theorem reduce_hw (x : S64x128x64x64.Idx → EReal) (init : EReal) (j : S64x128.Idx) :
    Ideal.hostReduceAdd reducesTo_S64x128x64x64_S64x128_d2_3 x init j
      = init + ∑ h : Fin 64, ∑ w : Fin 64, x (ix4 (j 0) (j 1) h w) :=
  reduce_hw_any _ x init j

/-- On the column axis the scatter's window starts at zero: the start indices only move the row. -/
theorem start_col (idx : IVec S64x1 32) (j : S64x128.Idx) :
    scatter_S4x128_S64x1_S64x128_1_0_0_1.start j idx 1 = 0 := by
  unfold ScatterDims.start
  exact dif_neg (by decide)

/-- On the column axis the scatter's window coordinate is the update element's own column. -/
theorem window_col (j : S64x128.Idx) :
    scatter_S4x128_S64x1_S64x128_1_0_0_1.window j 1 = (j 1).val := by
  unfold ScatterDims.window
  rw [dif_pos (by decide)]
  rfl

/-- An update element lands in its own column: the scatter moves rows only. -/
theorem scatter_col (idx : IVec S64x1 32) (j : S64x128.Idx) (p : S4x128.Idx)
    (h : scatter_S4x128_S64x1_S64x128_1_0_0_1.resultIdx? j idx = some p) : j 1 = p 1 := by
  unfold ScatterDims.resultIdx? at h
  split at h
  · have hp := Option.some.inj h
    subst hp
    apply Fin.ext
    simp only [start_col, window_col]
    omega
  · exact absurd h (by simp)

/-- A scatter target element receives at most 64 update elements: they share its column, so their rows
    tell them apart, and there are 64 rows. -/
theorem scatter_rows_card (idx : IVec S64x1 32) (p : S4x128.Idx) :
    (Finset.univ.filter (fun j : S64x128.Idx =>
      scatter_S4x128_S64x1_S64x128_1_0_0_1.resultIdx? j idx = some p)).card ≤ 64 := by
  have hle := Finset.card_le_card_of_injOn
    (s := Finset.univ.filter (fun j : S64x128.Idx =>
      scatter_S4x128_S64x1_S64x128_1_0_0_1.resultIdx? j idx = some p))
    (t := (Finset.univ : Finset (Fin 64))) (fun j => (j 0 : Fin 64))
    (fun _ _ => Finset.mem_coe.2 (Finset.mem_univ _))
    (by
      intro a ha b hb hab
      have ha1 := scatter_col idx a p (Finset.mem_filter.1 (Finset.mem_coe.1 ha)).2
      have hb1 := scatter_col idx b p (Finset.mem_filter.1 (Finset.mem_coe.1 hb)).2
      have h0 : a 0 = b 0 := hab
      have h1 : a 1 = b 1 := ha1.trans hb1.symm
      rw [eq_ix2 a, eq_ix2 b, h0, h1])
  simpa using hle

end Cert.RefSums

end
-- ==== Proof.VarianceBound.lean ====
/- Cauchy–Schwarz for a finite block of real numbers: the square of a mean is at most the mean of the
   squares, also when the divisor is larger than the number of terms; hence a variance computed as
   "mean of squares minus square of mean" is nonnegative. -/
import Mathlib.Algebra.Order.Chebyshev
import Mathlib.Analysis.SpecialFunctions.Pow.Real

namespace Cert.VarianceBound

/-- Cauchy–Schwarz for a block of J.card rows of Fintype.card κ numbers each: the square of their mean is
    at most the mean of their squares, when the divisor N is at least the number of terms. -/
theorem sq_mean_le_mean_sq {ι κ : Type*} [Fintype κ] (J : Finset ι) (a : ι → κ → ℝ) (N : ℝ) (hN0 : 0 < N)
    (hN : ((J.card * Fintype.card κ : ℕ) : ℝ) ≤ N) :
    ((∑ j ∈ J, ∑ k, a j k) / N) * ((∑ j ∈ J, ∑ k, a j k) / N) ≤ (∑ j ∈ J, ∑ k, a j k * a j k) / N := by
  -- the double sums as single sums over the product index set
  have h1 : (∑ j ∈ J, ∑ k, a j k) = ∑ p ∈ J ×ˢ (Finset.univ : Finset κ), a p.1 p.2 :=
    (Finset.sum_product' J Finset.univ a).symm
  have h2 : (∑ j ∈ J, ∑ k, a j k * a j k) = ∑ p ∈ J ×ˢ (Finset.univ : Finset κ), (a p.1 p.2) ^ 2 := by
    rw [Finset.sum_product]
    refine Finset.sum_congr rfl (fun j _ => Finset.sum_congr rfl (fun k _ => ?_))
    ring
  have hcard : (J ×ˢ (Finset.univ : Finset κ)).card = J.card * Fintype.card κ := by
    rw [Finset.card_product, Finset.card_univ]
  -- Cauchy–Schwarz: (sum)² ≤ (number of terms) · (sum of squares)
  have hcs := sq_sum_le_card_mul_sum_sq (s := J ×ˢ (Finset.univ : Finset κ)) (f := fun p => a p.1 p.2)
  rw [hcard] at hcs
  have hT2 : 0 ≤ ∑ p ∈ J ×ˢ (Finset.univ : Finset κ), (a p.1 p.2) ^ 2 :=
    Finset.sum_nonneg (fun p _ => sq_nonneg _)
  rw [h1, h2]
  set S := ∑ p ∈ J ×ˢ (Finset.univ : Finset κ), a p.1 p.2 with hS
  set T := ∑ p ∈ J ×ˢ (Finset.univ : Finset κ), (a p.1 p.2) ^ 2 with hT
  have hle : S ^ 2 ≤ N * T := le_trans hcs (mul_le_mul_of_nonneg_right hN hT2)
  rw [div_mul_div_comm, div_le_div_iff₀ (mul_pos hN0 hN0) hN0]
  nlinarith [hle, hN0, mul_le_mul_of_nonneg_left hle hN0.le]

/-- The same as a nonnegative difference: the mean of the squares minus the square of the mean is not
    negative. -/
theorem var_nonneg {ι κ : Type*} [Fintype κ] (J : Finset ι) (a : ι → κ → ℝ) (N : ℝ) (hN0 : 0 < N)
    (hN : ((J.card * Fintype.card κ : ℕ) : ℝ) ≤ N) :
    0 ≤ (∑ j ∈ J, ∑ k, a j k * a j k) / N - ((∑ j ∈ J, ∑ k, a j k) / N) * ((∑ j ∈ J, ∑ k, a j k) / N) :=
  sub_nonneg.mpr (sq_mean_le_mean_sq J a N hN0 hN)

end Cert.VarianceBound
-- ==== Proof.RefStages.lean ====
/- The reference's per-group statistics are real numbers, and its variance is not negative.
   Each of the 64·128 rows of the input is summed over its 64·64 entries, and so is its square; a row is then
   added into one of 4 groups by an index, column by column. A group therefore collects at most 64 rows of one
   column, that is at most 64·4096 = 262144 numbers, and the mean and the mean of squares divide by exactly
   262144. By Cauchy–Schwarz (with a divisor at least the number of terms) the mean of squares minus the square
   of the mean is not negative; adding a positive constant makes it positive, so its reciprocal square root is a
   real number, and everything built from these by sums, products and negation is a real number. -/
import proofs.«115903_j54004918780586_2_alg».proof.Proof.RefReadP
import proofs.«115903_j54004918780586_2_alg».proof.Proof.RefSums
import proofs.«115903_j54004918780586_2_alg».proof.Proof.LibExtReal
import proofs.«115903_j54004918780586_2_alg».proof.Proof.VarianceBound

noncomputable section

namespace Cert.RefStages

open Idealize.ShloMosaic Idealize.ShloMosaic.ValueIdx Cert.ReferenceIdeal Cert.ReferenceIdeal.Gen
  Cert.ReferenceIdeal.ReadP Cert.LibExtReal

variable (x : (⟨S64x128x64x64, .f32⟩ : BufTy).Contents (Elt Ideal))
  (idx : (⟨S64, .i32⟩ : BufTy).Contents (Elt Ideal))
  (γ β : (⟨S4x128, .f32⟩ : BufTy).Contents (Elt Ideal))

/-! ## The stages read at an index -/

/-- A row sum is the double sum of the row's entries. -/
theorem v0_eq (j : S64x128.Idx) :
    val_main_v0 (F := Ideal) x j = ∑ h : Fin 64, ∑ w : Fin 64, x (ix4 (j 0) (j 1) h w) := by
  show Ideal.hostReduceAdd _ x (val_main_cst (F := Ideal) _) j = _
  rw [Cert.RefSums.reduce_hw_any, val_main_cst_apply, Ideal.ofBits_def, ofBits_zero, zero_add]

/-- A row sum of squares is the double sum of the squares of the row's entries. -/
theorem v2_eq (j : S64x128.Idx) :
    val_main_v2 (F := Ideal) x j
      = ∑ h : Fin 64, ∑ w : Fin 64, x (ix4 (j 0) (j 1) h w) * x (ix4 (j 0) (j 1) h w) := by
  show Ideal.hostReduceAdd _ (val_main_v1 (F := Ideal) x) (val_main_cst_0 (F := Ideal) _) j = _
  rw [Cert.RefSums.reduce_hw_any, val_main_cst_0_apply, Ideal.ofBits_def, ofBits_zero, zero_add]
  rfl

/-- The array the row sums are added into starts at zero. -/
theorem v3_eq (p : S4x128.Idx) : val_main_v3 (F := Ideal) p = 0 := by
  rw [val_main_v3_apply, val_main_cst_1_apply, Ideal.ofBits_def, ofBits_zero]

/-- The array the row sums of squares are added into starts at zero. -/
theorem v6_eq (p : S4x128.Idx) : val_main_v6 (F := Ideal) p = 0 := by
  rw [val_main_v6_apply, val_main_cst_2_apply, Ideal.ofBits_def, ofBits_zero]

/-- The divisor of the mean is 262144. -/
theorem v17_eq (p : S4x128.Idx) : val_main_v17 (F := Ideal) p = ((262144 : ℝ) : EReal) := by
  rw [val_main_v17_apply, val_main_cst_6_apply, Ideal.ofBits_def, ofBits_n]

/-- The divisor of the mean of squares is 262144. -/
theorem v19_eq (p : S4x128.Idx) : val_main_v19 (F := Ideal) p = ((262144 : ℝ) : EReal) := by
  rw [val_main_v19_apply, val_main_cst_7_apply, Ideal.ofBits_def, ofBits_n]

/-- The constant added to the variance is a positive real number. -/
theorem v23_eq (p : S4x128.Idx) : ∃ e : ℝ, 0 < e ∧ val_main_v23 (F := Ideal) p = (e : EReal) := by
  obtain ⟨e, he, h⟩ := ofBits_eps
  refine ⟨e, he, ?_⟩
  rw [val_main_v23_apply, val_main_cst_8_apply, Ideal.ofBits_def, h]

/-- The rows added into group element `p`. -/
abbrev rowsOf (p : S4x128.Idx) : Finset S64x128.Idx :=
  Finset.univ.filter (fun j : S64x128.Idx =>
    scatter_S4x128_S64x1_S64x128_1_0_0_1.resultIdx? j (val_main_v4 (F := Ideal) idx) = some p)

/-- A group's sum is the sum of the row sums added into it. -/
theorem v5_eq (p : S4x128.Idx) :
    val_main_v5 (F := Ideal) x idx p = ∑ j ∈ rowsOf idx p, val_main_v0 (F := Ideal) x j := by
  show Ideal.hostScatterAdd scatter_S4x128_S64x1_S64x128_1_0_0_1 (val_main_v3 (F := Ideal))
    (val_main_v4 (F := Ideal) idx) (val_main_v0 (F := Ideal) x) p = _
  unfold Ideal.hostScatterAdd
  rw [v3_eq, zero_add]

/-- A group's sum of squares is the sum of the row sums of squares added into it: the same rows. -/
theorem v8_eq (p : S4x128.Idx) :
    val_main_v8 (F := Ideal) x idx p = ∑ j ∈ rowsOf idx p, val_main_v2 (F := Ideal) x j := by
  show Ideal.hostScatterAdd scatter_S4x128_S64x1_S64x128_1_0_0_1 (val_main_v6 (F := Ideal))
    (val_main_v4 (F := Ideal) idx) (val_main_v2 (F := Ideal) x) p = _
  unfold Ideal.hostScatterAdd
  rw [v6_eq, zero_add]

/-- At most 64 rows are added into one group element. -/
theorem rowsOf_card (p : S4x128.Idx) : (rowsOf idx p).card ≤ 64 :=
  Cert.RefSums.scatter_rows_card (val_main_v4 (F := Ideal) idx) p

/-! ## The mean and the variance -/

/-- The mean is a real number and the variance a real number that is not negative. -/
theorem stats (hx : ∀ i, IsReal (x i)) (p : S4x128.Idx) :
    ∃ m v : ℝ, 0 ≤ v ∧ val_main_v18 (F := Ideal) x idx p = (m : EReal)
      ∧ val_main_v22 (F := Ideal) x idx p = (v : EReal) := by
  choose xr hxr using hx
  have h0 : ∀ j : S64x128.Idx, val_main_v0 (F := Ideal) x j
      = ((∑ k : Fin 64 × Fin 64, xr (ix4 (j 0) (j 1) k.1 k.2) : ℝ) : EReal) := by
    intro j
    rw [v0_eq]
    simp only [hxr, coe_sum]
    congr 1
    exact (Fintype.sum_prod_type (fun k : Fin 64 × Fin 64 => xr (ix4 (j 0) (j 1) k.1 k.2))).symm
  have h2 : ∀ j : S64x128.Idx, val_main_v2 (F := Ideal) x j
      = ((∑ k : Fin 64 × Fin 64, xr (ix4 (j 0) (j 1) k.1 k.2) * xr (ix4 (j 0) (j 1) k.1 k.2) : ℝ) : EReal) := by
    intro j
    rw [v2_eq]
    simp only [hxr, ← EReal.coe_mul, coe_sum]
    congr 1
    exact (Fintype.sum_prod_type (fun k : Fin 64 × Fin 64 =>
      xr (ix4 (j 0) (j 1) k.1 k.2) * xr (ix4 (j 0) (j 1) k.1 k.2))).symm
  have hcard : (((rowsOf idx p).card * Fintype.card (Fin 64 × Fin 64) : ℕ) : ℝ) ≤ 262144 := by
    have hc := rowsOf_card idx p
    have hk : Fintype.card (Fin 64 × Fin 64) = 4096 := by simp [Fintype.card_prod]
    have : (rowsOf idx p).card * Fintype.card (Fin 64 × Fin 64) ≤ 262144 := by rw [hk]; omega
    exact_mod_cast this
  have hvar := Cert.VarianceBound.var_nonneg (rowsOf idx p)
    (fun (j : S64x128.Idx) (k : Fin 64 × Fin 64) => xr (ix4 (j 0) (j 1) k.1 k.2)) 262144 (by norm_num) hcard
  refine ⟨(∑ j ∈ rowsOf idx p, ∑ k : Fin 64 × Fin 64, xr (ix4 (j 0) (j 1) k.1 k.2)) / 262144, _, hvar, ?_, ?_⟩
  · rw [val_main_v18_apply, Ideal.hostDivf_def, v5_eq, v17_eq]
    simp only [h0, coe_sum]
    rw [div_coe_coe _ _ (by norm_num)]
  · rw [val_main_v22_apply, Ideal.subf_def, val_main_v20_apply, Ideal.hostDivf_def, v8_eq, v19_eq,
      val_main_v21_apply, Ideal.mulf_def, val_main_v18_apply, Ideal.hostDivf_def, v5_eq, v17_eq]
    simp only [h0, h2, coe_sum]
    rw [div_coe_coe _ _ (by norm_num), div_coe_coe _ _ (by norm_num), ← EReal.coe_mul, ← EReal.coe_sub]

/-- A row sum is a real number. -/
theorem rowsum_real (hx : ∀ i, IsReal (x i)) (j : S64x128.Idx) : IsReal (val_main_v0 (F := Ideal) x j) := by
  rw [v0_eq]
  exact IsReal.sum _ _ (fun h _ => IsReal.sum _ _ (fun w _ => hx _))

/-- A row sum of squares is a real number. -/
theorem rowsumsq_real (hx : ∀ i, IsReal (x i)) (j : S64x128.Idx) : IsReal (val_main_v2 (F := Ideal) x j) := by
  rw [v2_eq]
  exact IsReal.sum _ _ (fun h _ => IsReal.sum _ _ (fun w _ => IsReal.mul (hx _) (hx _)))

/-- The mean is a real number. -/
theorem mean_real (hx : ∀ i, IsReal (x i)) (p : S4x128.Idx) : IsReal (val_main_v18 (F := Ideal) x idx p) := by
  obtain ⟨m, _, _, hm, _⟩ := stats x idx hx p
  exact ⟨m, hm⟩

/-- The variance is a real number that is not negative. -/
theorem var_nonneg (hx : ∀ i, IsReal (x i)) (p : S4x128.Idx) :
    ∃ v : ℝ, 0 ≤ v ∧ val_main_v22 (F := Ideal) x idx p = (v : EReal) := by
  obtain ⟨_, v, hv, _, hv2⟩ := stats x idx hx p
  exact ⟨v, hv, hv2⟩

/-- Clamping the variance at zero from below changes nothing. -/
theorem clamp_id (hx : ∀ i, IsReal (x i)) (p : S4x128.Idx) :
    max (val_main_v22 (F := Ideal) x idx p) (0 : EReal) = val_main_v22 (F := Ideal) x idx p := by
  obtain ⟨v, hv, hv2⟩ := var_nonneg x idx hx p
  rw [hv2]
  exact max_eq_left_of_nonneg_coe hv

/-- The reciprocal square root of the variance plus the positive constant is a real number. -/
theorem inv_real (hx : ∀ i, IsReal (x i)) (p : S4x128.Idx) : IsReal (val_main_v25 (F := Ideal) x idx p) := by
  obtain ⟨v, hv, hv2⟩ := var_nonneg x idx hx p
  obtain ⟨e, he, he2⟩ := v23_eq p
  rw [val_main_v25_apply, Ideal.hostUnary_rsqrt_def, val_main_v24_apply, Ideal.addf_def, hv2, he2,
    ← EReal.coe_add]
  exact IsReal.rsqrt_of_pos ⟨v + e, by linarith, rfl⟩

/-- The flag of a group that received a row is zero or one, a real number. -/
theorem flag_real (p : S4x128.Idx) : IsReal (val_main_v30 (F := Ideal) idx p) := by
  rw [val_main_v30_apply, val_main_v16_apply, val_main_v15_apply]
  exact ⟨_, rfl⟩

/-- The per-group offset, masked by the flag, is a real number. -/
theorem z_real (hx : ∀ i, IsReal (x i)) (hγ : ∀ p, IsReal (γ p)) (hβ : ∀ p, IsReal (β p)) (p : S4x128.Idx) :
    IsReal (val_main_v31 (F := Ideal) x idx γ β p) := by
  rw [val_main_v31_apply, Ideal.mulf_def, val_main_v29_apply, Ideal.addf_def, val_main_v28_apply,
    Ideal.mulf_def, val_main_v27_apply, Ideal.mulf_def, val_main_v26_apply, Ideal.hostNegf_def, Ideal.negf_def]
  exact IsReal.mul
    (IsReal.add (IsReal.mul (IsReal.mul (IsReal.neg (mean_real x idx hx p)) (inv_real x idx hx p)) (hγ p)) (hβ p))
    (flag_real idx p)

/-- The sum of the masked offsets over the four groups is a real number. -/
theorem ztot_real (hx : ∀ i, IsReal (x i)) (hγ : ∀ p, IsReal (γ p)) (hβ : ∀ p, IsReal (β p)) (c : S128.Idx) :
    IsReal (val_main_v32 (F := Ideal) x idx γ β c) := by
  rw [val_main_v32_apply, val_main_cst_9_apply, Ideal.ofBits_def, ofBits_zero]
  exact IsReal.add IsReal.zero (IsReal.sum _ _ (fun k _ => z_real x idx γ β hx hγ hβ _))

end Cert.RefStages

end
-- ==== Proof.RowSums.lean ====
/- Flattening the two trailing axes of a 64×128×64×64 array into one axis of length 4096 puts entry (h, w) at
   position 64·h + w, and (h, w) ↦ 64·h + w is a bijection from pairs below 64 to numbers below 4096. So the sum
   of a row's 4096 entries is the double sum over (h, w) of the original entries, and likewise for the squares:
   the row sums taken after flattening are the row sums over the two trailing axes. Reshaping back reads the same
   positions the other way round. -/
import proofs.«115903_j54004918780586_2_alg».proof.Proof.Stats
import proofs.«115903_j54004918780586_2_alg».proof.Proof.RefStages
import Idealize.ShloMosaic.Lib.Pipeline.Value

noncomputable section

namespace Cert.RowSums

open Idealize.ShloMosaic Idealize.ShloMosaic.ValueIdx

/-- A pair (h, w) of numbers below 64 is the number 64·h + w below 4096, and every such number is one pair:
    quotient and remainder by 64. -/
def hwEquiv : Fin 64 × Fin 64 ≃ Fin 4096 where
  toFun p := ⟨64 * p.1.val + p.2.val, by have := p.1.isLt; have := p.2.isLt; omega⟩
  invFun l := (⟨l.val / 64, by have := l.isLt; omega⟩, ⟨l.val % 64, by omega⟩)
  left_inv p := by
    obtain ⟨h, w⟩ := p
    have := h.isLt
    have := w.isLt
    refine Prod.ext (Fin.ext ?_) (Fin.ext ?_)
    · show (64 * h.val + w.val) / 64 = h.val
      omega
    · show (64 * h.val + w.val) % 64 = w.val
      omega
  right_inv l := by
    refine Fin.ext ?_
    show 64 * (l.val / 64) + l.val % 64 = l.val
    omega

/-- The flattened array at position 64·h + w of row (b, c) is the original array at (b, c, h, w): the two have the
    same position in row-major order. -/
theorem flat_apply (x : Cert.KernelIdeal.S64x128x64x64.Idx → EReal)
    (hc : Cert.KernelIdeal.S64x128x64x64.ShapeCasts Cert.KernelIdeal.S64x128x4096)
    (b : Fin 64) (c : Fin 128) (h w : Fin 64) :
    shapeCast Cert.KernelIdeal.S64x128x4096 x hc
      (ix3 b c ⟨64 * h.val + w.val, by have := h.isLt; have := w.isLt; omega⟩) = x (ix4 b c h w) :=
  shapeCast_apply x hc _ _ (by
    rw [Shape.rowMajor_val_four, Shape.rowMajor_val_three]
    show ((b.val * 128 + c.val) * 64 + h.val) * 64 + w.val
      = (b.val * 128 + c.val) * 4096 + (64 * h.val + w.val)
    omega)

/-- The other way round: the 64×128×4096 array reshaped to 64×128×64×64 has, at (b, c, h, w), the entry at
    position 64·h + w of row (b, c), the two having the same position in row-major order. -/
theorem unflat_apply (G : Cert.KernelIdeal.S64x128x4096.Idx → EReal)
    (hc' : Cert.KernelIdeal.S64x128x4096.ShapeCasts Cert.KernelIdeal.S64x128x64x64)
    (b : Fin 64) (c : Fin 128) (h w : Fin 64) :
    shapeCast Cert.KernelIdeal.S64x128x64x64 G hc' (ix4 b c h w)
      = G (ix3 b c ⟨64 * h.val + w.val, by have := h.isLt; have := w.isLt; omega⟩) :=
  shapeCast_apply G hc' _ _ (by
    rw [Shape.rowMajor_val_three, Shape.rowMajor_val_four]
    show (b.val * 128 + c.val) * 4096 + (64 * h.val + w.val)
      = ((b.val * 128 + c.val) * 64 + h.val) * 64 + w.val
    omega)

/-- The row sums of the flattened array are the sums over the two trailing axes of the original array. -/
theorem rowSum_flat (x : Cert.KernelIdeal.S64x128x64x64.Idx → EReal)
    (hc : Cert.KernelIdeal.S64x128x64x64.ShapeCasts Cert.KernelIdeal.S64x128x4096) :
    Cert.KernelIdeal.Stats.rowSum (shapeCast Cert.KernelIdeal.S64x128x4096 x hc)
      = Cert.ReferenceIdeal.ReadP.val_main_v0 (F := Ideal) x := by
  funext j
  rw [Cert.RefStages.v0_eq]
  unfold Cert.KernelIdeal.Stats.rowSum
  rw [← Fintype.sum_prod_type' (fun (h : Fin 64) (w : Fin 64) => x (ix4 (j 0) (j 1) h w))]
  symm
  refine Fintype.sum_equiv hwEquiv _ _ (fun p => ?_)
  exact (flat_apply x hc (j 0) (j 1) p.1 p.2).symm

/-- The row sums of squares of the flattened array are the sums of squares over the two trailing axes of the
    original array. -/
theorem rowSumSq_flat (x : Cert.KernelIdeal.S64x128x64x64.Idx → EReal)
    (hc : Cert.KernelIdeal.S64x128x64x64.ShapeCasts Cert.KernelIdeal.S64x128x4096) :
    Cert.KernelIdeal.Stats.rowSumSq (shapeCast Cert.KernelIdeal.S64x128x4096 x hc)
      = Cert.ReferenceIdeal.ReadP.val_main_v2 (F := Ideal) x := by
  funext j
  rw [Cert.RefStages.v2_eq]
  unfold Cert.KernelIdeal.Stats.rowSumSq
  rw [← Fintype.sum_prod_type' (fun (h : Fin 64) (w : Fin 64) =>
    x (ix4 (j 0) (j 1) h w) * x (ix4 (j 0) (j 1) h w))]
  symm
  refine Fintype.sum_equiv hwEquiv _ _ (fun p => ?_)
  have e := flat_apply x hc (j 0) (j 1) p.1 p.2
  show _ = shapeCast Cert.KernelIdeal.S64x128x4096 x hc (ix3 (j 0) (j 1) (hwEquiv p))
    * shapeCast Cert.KernelIdeal.S64x128x4096 x hc (ix3 (j 0) (j 1) (hwEquiv p))
  exact (congrArg₂ (· * ·) e e).symm

end Cert.RowSums

end
-- ==== Proof.Bridge.lean ====
/-
  The two idealized programs compute one function. With x the input, per subject s and channel c let mean, var, inv, z and
  ztot be the reference's statistics. Both programs form them from the same row sums (the kernel's lane sums of the flattened
  input are the reference's sums over the two trailing axes), and the kernel's guard max(var, 0) changes nothing because a
  variance of real numbers is nonnegative. At an entry (b, c, h, w), with P the table row the gather assigns to batch row b,
  the kernel returns x · (inv P · γ P) + (((β P + ztot c) − z P) − (mean P · inv P) · γ P) and the reference
  (((x − mean P) · inv P) · γ P + β P) + (ztot c − z P): two groupings of one affine expression, equal because every letter
  is a real number.
-/
import proofs.«115903_j54004918780586_2_alg».proof.Proof.KernelValue
import proofs.«115903_j54004918780586_2_alg».proof.Proof.RefStages
import proofs.«115903_j54004918780586_2_alg».proof.Proof.RowSums
import Idealize.ShloMosaic.Lib.Pipeline.Value
import Idealize.ShloMosaic.Lib.ValueIdx

set_option maxRecDepth 16384

noncomputable section

namespace Cert.Bridge

open Idealize.ShloMosaic Idealize.ShloMosaic.ValueIdx Cert.LibExtReal Cert.KernelIdeal Cert.KernelIdeal.Gen Cert.ReferenceIdeal.ReadP

variable (x : FVec Ideal S64x128x64x64 .f32) (idx : IVec S64 32) (γ β : FVec Ideal S4x128 .f32)

theorem zero4_apply (p : S4x128.Idx) : Glue.zero4 p = 0 := Cert.LibExtReal.ofBits_zero

/-- The kernel's guard leaves the variance as it is: a variance of real numbers is nonnegative. -/
theorem clamp_var (hx : ∀ i, IsReal (x i)) :
    Glue.clamp (val_main_v22 (F := Ideal) x idx) = val_main_v22 (F := Ideal) x idx := by
  funext p
  show max (val_main_v22 (F := Ideal) x idx p) (Glue.zero4 p) = _
  rw [zero4_apply]
  exact Cert.RefStages.clamp_id x idx hx p

/-- The table row the gather assigns to batch row j. -/
def row (j : S64x128.Idx) : S4x128.Idx :=
  gather_S4x128_S64x1_S64x128_1_0_n_n_0_1_1128.operandIdx j (Glue.gidx idx)

/-- A channel's scalar spread over the 64 batch rows reads back the channel's scalar. -/
theorem chan_apply (y : FVec Ideal S128 .f32) (j : S64x128.Idx) :
    broadcastInDim S64x128 ![0, 1] bcast_S1x128_S64x128_0_1 (broadcastInDim S1x128 ![1] bcast_S128_S1x128_1 y) j = y (ix1 (j 1)) := by
  refine (broadcastInDim_apply _ _ _ j (ix2 (0 : Fin 1) (j 1)) ?_).trans ?_
  · intro a
    match a with
    | ⟨0, _⟩ => rfl
    | ⟨1, _⟩ => rfl
  · refine broadcastInDim_apply _ _ _ _ (ix1 (j 1)) ?_
    intro a
    match a with
    | ⟨0, _⟩ => rfl

/-- The kernel's scale at batch row j, over the reference's statistics. -/
theorem scale_apply (hx : ∀ i, IsReal (x i)) (j : S64x128.Idx) :
    Glue.scale (val_main_v0 (F := Ideal) x) (val_main_v2 (F := Ideal) x) idx γ j
      = val_main_v25 (F := Ideal) x idx (row idx j) * γ (row idx j) := by
  unfold Glue.scale
  rw [show Glue.var (val_main_v0 (F := Ideal) x) (val_main_v2 (F := Ideal) x) idx = val_main_v22 (F := Ideal) x idx from rfl,
    clamp_var x idx hx]
  rfl

/-- The kernel's offset at batch row j, over the reference's statistics. -/
theorem bias_apply (hx : ∀ i, IsReal (x i)) (j : S64x128.Idx) :
    Glue.bias (val_main_v0 (F := Ideal) x) (val_main_v2 (F := Ideal) x) idx γ β j
      = ((β (row idx j) + val_main_v32 (F := Ideal) x idx γ β (ix1 (j 1))) - val_main_v31 (F := Ideal) x idx γ β (row idx j))
        - (val_main_v18 (F := Ideal) x idx (row idx j) * val_main_v25 (F := Ideal) x idx (row idx j)) * γ (row idx j) := by
  unfold Glue.bias
  rw [show Glue.var (val_main_v0 (F := Ideal) x) (val_main_v2 (F := Ideal) x) idx = val_main_v22 (F := Ideal) x idx from rfl,
    clamp_var x idx hx]
  show ((β (row idx j) + broadcastInDim S64x128 ![0, 1] bcast_S1x128_S64x128_0_1 (broadcastInDim S1x128 ![1] bcast_S128_S1x128_1
      (val_main_v32 (F := Ideal) x idx γ β)) j) - val_main_v31 (F := Ideal) x idx γ β (row idx j))
    - (val_main_v18 (F := Ideal) x idx (row idx j) * val_main_v25 (F := Ideal) x idx (row idx j)) * γ (row idx j) = _
  rw [chan_apply]

/-- The reference's result at entry (b, c, h, w). -/
theorem ref_apply (b : Fin 64) (c : Fin 128) (h w : Fin 64) :
    val_main_v85 (F := Ideal) x idx γ β (ix4 b c h w)
      = (((x (ix4 b c h w) - val_main_v18 (F := Ideal) x idx (row idx (ix2 b c))) * val_main_v25 (F := Ideal) x idx (row idx (ix2 b c)))
            * γ (row idx (ix2 b c)) + β (row idx (ix2 b c)))
        + (val_main_v32 (F := Ideal) x idx γ β (ix1 c) - val_main_v31 (F := Ideal) x idx γ β (row idx (ix2 b c))) := by
  rw [val_main_v85_apply, val_main_v72_apply, val_main_v62_apply, val_main_v52_apply, val_main_v42_apply,
    val_main_v41_apply, val_main_v40_apply, val_main_v51_apply, val_main_v50_apply, val_main_v61_apply, val_main_v60_apply,
    val_main_v71_apply, val_main_v70_apply, val_main_v84_apply, val_main_v83_apply, val_main_v82_apply, val_main_v73_apply,
    val_main_v81_apply]
  have e1 : idx_main_v40 (idx_main_v41 (ix4 b c h w)) = ix2 b c := by
    funext a; match a with | ⟨0, _⟩ => rfl | ⟨1, _⟩ => rfl
  have e2 : idx_main_v50 (idx_main_v51 (ix4 b c h w)) = ix2 b c := by
    funext a; match a with | ⟨0, _⟩ => rfl | ⟨1, _⟩ => rfl
  have e3 : idx_main_v60 (idx_main_v61 (ix4 b c h w)) = ix2 b c := by
    funext a; match a with | ⟨0, _⟩ => rfl | ⟨1, _⟩ => rfl
  have e4 : idx_main_v70 (idx_main_v71 (ix4 b c h w)) = ix2 b c := by
    funext a; match a with | ⟨0, _⟩ => rfl | ⟨1, _⟩ => rfl
  have e5 : idx_main_v81 (idx_main_v84 (ix4 b c h w)) = ix2 b c := by
    funext a; match a with | ⟨0, _⟩ => rfl | ⟨1, _⟩ => rfl
  have e6 : idx_main_v73 (idx_main_v82 (idx_main_v84 (ix4 b c h w))) = ix1 c := by
    funext a; match a with | ⟨0, _⟩ => rfl
  rw [e1, e2, e3, e4, e5, e6]
  rfl

/-- The two programs' results are one function of the arguments, when the float arguments are real numbers. -/
theorem result_eq (hx : ∀ i, IsReal (x i)) (hγ : ∀ p, IsReal (γ p)) (hβ : ∀ p, IsReal (β p)) :
    Whole.result x idx γ β = val_main_v85 (F := Ideal) x idx γ β := by
  funext i
  obtain ⟨b, c, h, w, rfl⟩ : ∃ (b : Fin 64) (c : Fin 128) (h w : Fin 64), i = ix4 b c h w := ⟨i 0, i 1, i 2, i 3, eq_ix4 i⟩
  rw [ref_apply]
  unfold Whole.result
  rw [Cert.RowSums.unflat_apply]
  show Whole.flat x (ix3 b c ⟨64 * h.val + w.val, _⟩)
      * Glue.scale (Stats.rowSum (Whole.flat x)) (Stats.rowSumSq (Whole.flat x)) idx γ (ix2 b c)
    + Glue.bias (Stats.rowSum (Whole.flat x)) (Stats.rowSumSq (Whole.flat x)) idx γ β (ix2 b c) = _
  unfold Whole.flat
  rw [Cert.RowSums.flat_apply, Cert.RowSums.rowSum_flat, Cert.RowSums.rowSumSq_flat, scale_apply x idx γ hx, bias_apply x idx γ β hx]
  exact affine_regroup (hx _) (Cert.RefStages.mean_real x idx hx _) (Cert.RefStages.inv_real x idx hx _) (hγ _) (hβ _)
    (Cert.RefStages.ztot_real x idx γ β hx hγ hβ _) (Cert.RefStages.z_real x idx γ β hx hγ hβ _)

end Cert.Bridge

end
-- ==== Proof.lean ====
/-
  Per-subject batch normalization, closed form against the masked sum: the idealized kernel and the idealized reference end
  with equal results, entry by entry on the extended reals, when every float input is finite.

  Both programs form, per subject s and channel c, the totals over the batch rows of subject s of each row's sum and sum of
  squares, mean = total1 / n, var = total2 / n − mean² (n = 64·64·64), inv = (var + eps)^(-1/2), z = ((−mean·inv)·γ + β) for the
  subjects present, and ztot = Σ_s z. The kernel computes the row sums in a first region (lane sums of the input flattened to
  64×128×4096), clamps var at zero from below, and applies x·scale + bias in a second region with scale = inv·γ and
  bias = ((β + ztot) − z) − (mean·inv)·γ gathered to the batch rows; the reference returns ((x − mean)·inv)·γ + β + (ztot − z).
  The clamp is the identity because var is the variance of at most n real numbers padded with zeros (Cauchy–Schwarz), and the
  two groupings agree because every letter is a real number: this is where the precondition is used.

  The frames: the two kernels' are the generated ones; the reference's is its run with the result dropped. The ideal pass
  rewrote nothing, so the preservation claim is trivial.
-/
import proofs.«115903_j54004918780586_2_alg».proof.Defs
import proofs.«115903_j54004918780586_2_alg».proof.Proof.Gen.Kernel
import proofs.«115903_j54004918780586_2_alg».proof.Proof.Gen.Kernel.Skeleton
import proofs.«115903_j54004918780586_2_alg».proof.Proof.Gen.Kernel.Launch
import proofs.«115903_j54004918780586_2_alg».proof.Proof.Gen.Kernel.Points
import proofs.«115903_j54004918780586_2_alg».proof.Proof.Gen.Kernel.Frame
import proofs.«115903_j54004918780586_2_alg».proof.Proof.Gen.KernelIdeal
import proofs.«115903_j54004918780586_2_alg».proof.Proof.Gen.KernelIdeal.Skeleton
import proofs.«115903_j54004918780586_2_alg».proof.Proof.Gen.KernelIdeal.Launch
import proofs.«115903_j54004918780586_2_alg».proof.Proof.Gen.KernelIdeal.Points
import proofs.«115903_j54004918780586_2_alg».proof.Proof.Gen.KernelIdeal.Frame
import proofs.«115903_j54004918780586_2_alg».proof.Proof.Gen.ReferenceIdeal
import proofs.«115903_j54004918780586_2_alg».proof.Proof.Gen.Pre_finite_inputs
import proofs.«115903_j54004918780586_2_alg».proof.Proof.RefRunP
import proofs.«115903_j54004918780586_2_alg».proof.Proof.RefReadP
import proofs.«115903_j54004918780586_2_alg».proof.Proof.KernelValue
import proofs.«115903_j54004918780586_2_alg».proof.Proof.FiniteInputs
import proofs.«115903_j54004918780586_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- From memories agreeing on the arguments both programs end at one function of the arguments: the kernel's run ends at
    its whole-result function, the reference's at its last stage, and the two are equal where the float arguments are real
    numbers, which the precondition says they are. -/
theorem algebraic : Cert.algebraic_KernelIdeal_ReferenceIdeal := by
  intro m ρ m' ρ' hpre hagree
  refine ⟨fun c => Cert.KernelIdeal.Whole.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Whole.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v85_eq, (hagree c).1, (hagree c).2.1, (hagree c).2.2.1, (hagree c).2.2.2]
  obtain ⟨hx, hγ, hβ⟩ := Cert.FiniteInputs.reals_of_pre _ _ _ _ (hpre c)
  exact (Cert.Bridge.result_eq _ _ _ _ hx hγ hβ).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
